-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x64 .f32) (main_arg1 : IVec S1000000 32) (main_arg2 : IVec S1000000 32) (main_arg3 : FVec F S64x128 .f32) (main_arg4 : FVec F S64x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x64 : Shape := ⟨2, ![100000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x128 : Shape := ⟨2, ![1, 128]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S5000 : Shape := ⟨1, ![5000]⟩
abbrev S1000000x128 : Shape := ⟨2, ![1000000, 128]⟩

abbrev nBuf : Space → Nat
  | .hbm => 78
  | .vmem => 37
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x64, .f32⟩
  | .hbm, ⟨38, _⟩ => ⟨S_, .f32⟩
  | .hbm, ⟨39, _⟩ => ⟨S100000x64, .f32⟩
  | .hbm, ⟨40, _⟩ => ⟨S1000000x1, .i32⟩
  | .hbm, ⟨41, _⟩ => ⟨S100000x64, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x128, .f32⟩
  | .hbm, ⟨55, _⟩ => ⟨S_, .f32⟩
  | .hbm, ⟨56, _⟩ => ⟨S100000x128, .f32⟩
  | .hbm, ⟨57, _⟩ => ⟨S1000000x1, .i32⟩
  | .hbm, ⟨58, _⟩ => ⟨S100000x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S100000x128, .f32⟩
  | .hbm, ⟨63, _⟩ => ⟨S_, .i32⟩
  | .hbm, ⟨64, _⟩ => ⟨S1000000, .i32⟩
  | .hbm, ⟨65, _⟩ => ⟨S1000000, .i1⟩
  | .hbm, ⟨66, _⟩ => ⟨S_, .i32⟩
  | .hbm, ⟨67, _⟩ => ⟨S1000000, .i32⟩
  | .hbm, ⟨68, _⟩ => ⟨S1000000, .i32⟩
  | .hbm, ⟨69, _⟩ => ⟨S1000000, .i32⟩
  | .hbm, ⟨70, _⟩ => ⟨S1000000x1, .i32⟩
  | .hbm, ⟨71, _⟩ => ⟨S1000000x128, .f32⟩
  | .hbm, ⟨72, _⟩ => ⟨S_, .f32⟩
  | .hbm, ⟨73, _⟩ => ⟨S100000x128, .f32⟩
  | .hbm, ⟨74, _⟩ => ⟨S1000000x1, .i32⟩
  | .hbm, ⟨75, _⟩ => ⟨S100000x128, .f32⟩
  | .hbm, ⟨76, _⟩ => ⟨S1x128, .f32⟩
  | .hbm, ⟨77, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg6_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem6_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x128_S5000x128_1_0_0_1_n_n_wf : DotDims.WF S5000x64 S64x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1000000x128 : Shape := ⟨2, ![1000000, 128]⟩

abbrev nBuf : Space → Nat
  | .hbm => 188
  | .vmem => 0
  | .smem => 0
  | _ => 0

abbrev hbmTy0_0 (i : Nat) : BufTy := match i % 128 with
  | 0 => ⟨S100000x64, .f32⟩
  | 1 => ⟨S1000000, .i32⟩
  | 2 => ⟨S1000000, .i32⟩
  | 3 => ⟨S64x128, .f32⟩
  | 4 => ⟨S64x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x64, .f32⟩
  | 25 => ⟨S_, .f32⟩
  | 26 => ⟨S100000x64, .f32⟩
  | 27 => ⟨S1000000x1, .i32⟩
  | 28 => ⟨S100000x64, .f32⟩
  | 29 => ⟨S_, .f32⟩
  | 30 => ⟨S1000000, .f32⟩
  | 31 => ⟨S_, .f32⟩
  | 32 => ⟨S100000, .f32⟩
  | 33 => ⟨S1000000x1, .i32⟩
  | 34 => ⟨S100000, .f32⟩
  | 35 => ⟨S_, .f32⟩
  | 36 => ⟨S100000, .f32⟩
  | 37 => ⟨S100000, .i1⟩
  | 38 => ⟨S_, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S100000x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .f32⟩
  | 55 => ⟨S100000, .f32⟩
  | 56 => ⟨S100000x1, .f32⟩
  | 57 => ⟨S_, .f32⟩
  | 58 => ⟨S100000x1, .f32⟩
  | 59 => ⟨S100000x1, .f32⟩
  | 60 => ⟨S100000x128, .f32⟩
  | 61 => ⟨S100000x128, .f32⟩
  | 62 => ⟨S100000x128, .f32⟩
  | 63 => ⟨S_, .f32⟩
  | 64 => ⟨S100000, .f32⟩
  | 65 => ⟨S100000x1, .f32⟩
  | 66 => ⟨S_, .f32⟩
  | 67 => ⟨S100000x1, .f32⟩
  | 68 => ⟨S100000x1, .f32⟩
  | 69 => ⟨S100000x128, .f32⟩
  | 70 => ⟨S100000x128, .f32⟩
  | 71 => ⟨S_, .f32⟩
  | 72 => ⟨S100000x1, .f32⟩
  | 73 => ⟨S100000x1, .f32⟩
  | 74 => ⟨S100000x1, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000x128, .f32⟩
  | 92 => ⟨S_, .f32⟩
  | 93 => ⟨S100000x128, .f32⟩
  | 94 => ⟨S1000000x1, .i32⟩
  | 95 => ⟨S100000x128, .f32⟩
  | 96 => ⟨S_, .f32⟩
  | 97 => ⟨S1000000, .f32⟩
  | 98 => ⟨S_, .f32⟩
  | 99 => ⟨S100000, .f32⟩
  | 100 => ⟨S1000000x1, .i32⟩
  | 101 => ⟨S100000, .f32⟩
  | 102 => ⟨S_, .f32⟩
  | 103 => ⟨S100000, .f32⟩
  | 104 => ⟨S100000, .i1⟩
  | 105 => ⟨S_, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S_, .f32⟩
  | 122 => ⟨S100000, .f32⟩
  | 123 => ⟨S100000x1, .f32⟩
  | 124 => ⟨S_, .f32⟩
  | 125 => ⟨S100000x1, .f32⟩
  | 126 => ⟨S100000x1, .f32⟩
  | 127 => ⟨S100000x128, .f32⟩
  | _ => ⟨S100000x64, .f32⟩

abbrev hbmTy0_1 (i : Nat) : BufTy := match i % 128 with
  | 0 => ⟨S100000x128, .f32⟩
  | 1 => ⟨S100000x128, .f32⟩
  | 2 => ⟨S_, .f32⟩
  | 3 => ⟨S100000, .f32⟩
  | 4 => ⟨S100000x1, .f32⟩
  | 5 => ⟨S_, .f32⟩
  | 6 => ⟨S100000x1, .f32⟩
  | 7 => ⟨S100000x1, .f32⟩
  | 8 => ⟨S100000x128, .f32⟩
  | 9 => ⟨S100000x128, .f32⟩
  | 10 => ⟨S_, .f32⟩
  | 11 => ⟨S100000x1, .f32⟩
  | 12 => ⟨S100000x1, .f32⟩
  | 13 => ⟨S100000x1, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x128, .f32⟩
  | 31 => ⟨S_, .f32⟩
  | 32 => ⟨S100000x128, .f32⟩
  | 33 => ⟨S1000000x1, .i32⟩
  | 34 => ⟨S100000x128, .f32⟩
  | 35 => ⟨S_, .f32⟩
  | 36 => ⟨S1000000, .f32⟩
  | 37 => ⟨S_, .f32⟩
  | 38 => ⟨S100000, .f32⟩
  | 39 => ⟨S1000000x1, .i32⟩
  | 40 => ⟨S100000, .f32⟩
  | 41 => ⟨S_, .f32⟩
  | 42 => ⟨S100000, .f32⟩
  | 43 => ⟨S100000, .i1⟩
  | 44 => ⟨S_, .f32⟩
  | 45 => ⟨S_, .f32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call1_cst : Ref sig .tc := ⟨.hbm, 51, rfl⟩
abbrev main_call1_v0 : Ref sig .tc := ⟨.hbm, 52, rfl⟩
abbrev main_v26 : Ref sig .tc := ⟨.hbm, 53, rfl⟩
abbrev main_cst_5 : Ref sig .tc := ⟨.hbm, 54, rfl⟩
abbrev main_v27 : Ref sig .tc := ⟨.hbm, 55, rfl⟩
abbrev main_v28 : Ref sig .tc := ⟨.hbm, 56, rfl⟩
abbrev main_cst_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_v35 : Ref sig .tc := ⟨.hbm, 65, rfl⟩
abbrev main_cst_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_cst_14 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_15 : Ref sig .tc := ⟨.hbm, 102, rfl⟩
abbrev main_v65 : Ref sig .tc := ⟨.hbm, 103, rfl⟩
abbrev main_v66 : Ref sig .tc := ⟨.hbm, 104, rfl⟩
abbrev main_cst_16 : Ref sig .tc := ⟨.hbm, 105, rfl⟩
abbrev main_call2_v0 : Ref sig .tc := ⟨.hbm, 106, rfl⟩
abbrev main_call2_v1 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_call3_cst : Ref sig .tc := ⟨.hbm, 118, rfl⟩
abbrev main_call3_v0 : Ref sig .tc := ⟨.hbm, 119, rfl⟩
abbrev main_v77 : Ref sig .tc := ⟨.hbm, 120, rfl⟩
abbrev main_cst_17 : Ref sig .tc := ⟨.hbm, 121, rfl⟩
abbrev main_v78 : Ref sig .tc := ⟨.hbm, 122, rfl⟩
abbrev main_v79 : Ref sig .tc := ⟨.hbm, 123, rfl⟩
abbrev main_cst_18 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_19 : Ref sig .tc := ⟨.hbm, 130, rfl⟩
abbrev main_v85 : Ref sig .tc := ⟨.hbm, 131, rfl⟩
abbrev main_v86 : Ref sig .tc := ⟨.hbm, 132, rfl⟩
abbrev main_cst_20 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_21 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_22 : Ref sig .tc := ⟨.hbm, 150, rfl⟩
abbrev main_v102 : Ref sig .tc := ⟨.hbm, 151, rfl⟩
abbrev main_v103 : Ref sig .tc := ⟨.hbm, 152, rfl⟩
abbrev main_c_23 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_24 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_25 : Ref sig .tc := ⟨.hbm, 163, rfl⟩
abbrev main_v112 : Ref sig .tc := ⟨.hbm, 164, rfl⟩
abbrev main_cst_26 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_27 : Ref sig .tc := ⟨.hbm, 169, rfl⟩
abbrev main_v116 : Ref sig .tc := ⟨.hbm, 170, rfl⟩
abbrev main_v117 : Ref sig .tc := ⟨.hbm, 171, rfl⟩
abbrev main_cst_28 : Ref sig .tc := ⟨.hbm, 172, rfl⟩
abbrev main_call4_v0 : Ref sig .tc := ⟨.hbm, 173, rfl⟩
abbrev main_call4_v1 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_call5_cst : Ref sig .tc := ⟨.hbm, 185, rfl⟩
abbrev main_call5_v0 : Ref sig .tc := ⟨.hbm, 186, rfl⟩
abbrev main_v128 : Ref sig .tc := ⟨.hbm, 187, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x128_S100000x128_1_0_0_1_n_n_wf : DotDims.WF S100000x64 S64x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RunValue.lean ====
import proofs.«172100_j7851200217530_2_alg».proof.Proof.KernelIdealFrame

/-!
# The idealized kernel's run, with the result array named

Every weakly fair execution of the idealized kernel's program terminates without a fault, and in its final state the
result array holds what the last of the six segment boundaries holds at that buffer — the three regions' write-backs
folded through the three stretches of host operations from the launch memory — while every argument array is as
launched.  This is the frame statement with one more conjunct: the final state agrees with the last boundary's
contents on EVERY buffer that outlives the regions, the result array among them.
-/

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the three regions among their host stretches: the result array ends at the last boundary's contents
    of its buffer, the arguments as launched. -/
theorem run_value : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.RunValue

end
-- ==== Proof.Spec.lean ====
import Idealize.ShloMosaic.PureOps.Ideal
import Idealize.ShloMosaic.PureOps.Ideal.Laws
import Idealize.ShloMosaic.Lib.ValueIdx

/-!
# One layer of a mean-aggregating graph network, as a function of whole arrays

A node's new feature row depends on its own row `h`, on its neighbour row `a` (the sum of its
in-neighbours' rows scaled by the reciprocal of its in-degree), and on the layer's parameters.  The
activated row at output channel `j` is

  `max ((∑ k, h k * ws k j) + (∑ k, a k * wn k j) + b j) 0`,

and a normalising layer then centres the activated row by its mean over the 128 channels, scales it
by the reciprocal square root of its variance plus a small constant, and applies a per-channel scale
and shift.  Everything is over the extended reals.  The three constants are kept as the 32-bit words
both programs carry, so they are never evaluated.
-/

noncomputable section

open scoped BigOperators

namespace Cert.GraphLayer

open Idealize.ShloMosaic Idealize.ShloMosaic.ValueIdx

/-- The number of channels, 128, as the word both programs divide by. -/
abbrev c128 : EReal := Ideal.ofBits .f32 0x43000000#32
/-- The variance offset, as the word both programs add. -/
abbrev ceps : EReal := Ideal.ofBits .f32 0x3727C5AC#32
/-- The zero word both programs clamp against. -/
abbrev czero : EReal := Ideal.ofBits .f32 0x00000000#32

/-- The activated row at channel `j`: own row through `ws`, neighbour row through `wn`, the bias, clamped at zero. -/
def act {d : ℕ} (h a : Fin d → EReal) (ws wn : Fin d → Fin 128 → EReal) (b : Fin 128 → EReal) (j : Fin 128) : EReal :=
  max ((∑ k : Fin d, h k * ws k j) + (∑ k : Fin d, a k * wn k j) + b j) czero

/-- The mean of a row over its 128 channels. -/
def mean (o : Fin 128 → EReal) : EReal := Ideal.div (∑ j : Fin 128, o j) c128

/-- The variance of a row over its 128 channels (the mean of the squared deviations). -/
def var (o : Fin 128 → EReal) : EReal := Ideal.div (∑ j : Fin 128, (o j - mean o) * (o j - mean o)) c128

/-- The row centred, scaled by the reciprocal root of its variance plus the offset, then scaled and shifted per channel. -/
def normAt (o g be : Fin 128 → EReal) (j : Fin 128) : EReal :=
  (o j - mean o) * Ideal.rsqrt (var o + ceps) * g j + be j

/-- Entry `(p, j)` of the activated array from the node rows `h`, the neighbour rows `hn` and the parameters. -/
def actAt {N d : ℕ} (h hn : (⟨2, ![N, d]⟩ : Shape).Idx → EReal) (ws wn : (⟨2, ![d, 128]⟩ : Shape).Idx → EReal)
    (b : (⟨1, ![128]⟩ : Shape).Idx → EReal) (p : Fin N) (j : Fin 128) : EReal :=
  act (fun k => h (ix2 p k)) (fun k => hn (ix2 p k)) (fun k j => ws (ix2 k j)) (fun k j => wn (ix2 k j)) (fun j => b (ix1 j)) j

/-- A layer without normalisation, on whole arrays. -/
def layerP {N d : ℕ} (h hn : (⟨2, ![N, d]⟩ : Shape).Idx → EReal) (ws wn : (⟨2, ![d, 128]⟩ : Shape).Idx → EReal)
    (b : (⟨1, ![128]⟩ : Shape).Idx → EReal) : (⟨2, ![N, 128]⟩ : Shape).Idx → EReal :=
  fun i => actAt h hn ws wn b (i 0) (i 1)

/-- A normalising layer, on whole arrays. -/
def layerN {N d : ℕ} (h hn : (⟨2, ![N, d]⟩ : Shape).Idx → EReal) (ws wn : (⟨2, ![d, 128]⟩ : Shape).Idx → EReal)
    (b g be : (⟨1, ![128]⟩ : Shape).Idx → EReal) : (⟨2, ![N, 128]⟩ : Shape).Idx → EReal :=
  fun i => normAt (fun j => actAt h hn ws wn b (i 0) j) (fun j => g (ix1 j)) (fun j => be (ix1 j)) (i 1)

theorem layerP_apply {N d : ℕ} (h hn : (⟨2, ![N, d]⟩ : Shape).Idx → EReal) (ws wn : (⟨2, ![d, 128]⟩ : Shape).Idx → EReal)
    (b : (⟨1, ![128]⟩ : Shape).Idx → EReal) (p : Fin N) (j : Fin 128) :
    layerP h hn ws wn b (ix2 p j) = actAt h hn ws wn b p j := rfl

theorem layerN_apply {N d : ℕ} (h hn : (⟨2, ![N, d]⟩ : Shape).Idx → EReal) (ws wn : (⟨2, ![d, 128]⟩ : Shape).Idx → EReal)
    (b g be : (⟨1, ![128]⟩ : Shape).Idx → EReal) (p : Fin N) (j : Fin 128) :
    layerN h hn ws wn b g be (ix2 p j)
      = normAt (fun j => actAt h hn ws wn b p j) (fun j => g (ix1 j)) (fun j => be (ix1 j)) j := rfl

end Cert.GraphLayer

end
-- ==== Proof.LibKeepDims.lean ====
/-
  Column forms of a kept reduced axis, read at an index given by coordinates.

  A row statistic of an `[a, b]` block (a mean, a variance) is computed as a lane sum `[a, b] → [a]`, viewed as a
  column `[a] → [a, 1]`, and spread back over the lanes `[a, 1] → [a, b]`. Here each of the three steps is read at an
  index written by its coordinates: the column view at `(i, u)` is the vector at `i`; the spread column at `(p, c)` is
  the column at `(p, 0)`; and, at the ideal values, the lane sum at `p` is `∑ k : Fin b` of row `p`. Also one column
  of a matrix (a unit-width slice along axis 1) read at `(p, u)`.
-/
import Idealize.ShloMosaic.PureOps.Ideal
import Idealize.ShloMosaic.PureOps.Ideal.Laws
import Idealize.ShloMosaic.Lib.ValueIdx
import Idealize.ShloMosaic.Lib.ValueLayout

noncomputable section

open scoped BigOperators

namespace Idealize.ShloMosaic.KeepDims

open Idealize.ShloMosaic Idealize.ShloMosaic.ValueIdx

variable {α : Type}

/-! ## The column view of a vector, and a column spread over the lanes -/

/-- An `[a]` vector viewed as a column `[a, 1]` reads, at `(i, u)`, the vector at `i`, whatever the unit coordinate
    `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Column `o` of an `[a, n]` matrix, cut out as an `[a, 1]` slice, reads at `(p, u)` the matrix at `(p, o)`. -/
theorem column_apply {a n : ℕ} (o : ℕ) (X : (⟨2, ![a, n]⟩ : Shape).Idx → α)
    (h : (⟨2, ![a, n]⟩ : Shape).Slices ![0, o] ⟨2, ![a, 1]⟩) (p : Fin a) (u : Fin 1) (k : Fin n) (hk : k.val = o) :
    extractStridedSlice ⟨2, ![a, 1]⟩ ![0, o] X h (ix2 p u) = X (ix2 p k) :=
  slice2_axis1_apply o X h p u k (by have : u.val = 0 := by omega
                                     omega)

/-! ## The lane sum of a block, at the ideal values -/

/-- The sum over the lanes (axis 1) of an `[a, b]` block, read at row `p`, is `∑ k : Fin b` of the block's row `p`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext ax
  match ax with
  | ⟨0, _⟩ => exact Fin.ext rfl
  | ⟨1, _⟩ => exact Fin.ext rfl

end Idealize.ShloMosaic.KeepDims

end
-- ==== Proof.Body0.lean ====
/-
  The first normalising region's body, read at an index.

  The body loads a block of node rows `x0`, of neighbour-sum rows `x1`, the reciprocal-degree column `x2`, two weight
  matrices, and three parameter rows, and stores one `[5000, 128]` block. Read at `(p, q)`, the stored value is the
  specification's normalised activated row `normAt (act …) … q` of row `p`: the two block products are sums over the
  64 input channels, the bias row is spread over the rows, the clamp is a maximum with the zero word, and the mean and
  the variance are lane sums divided by the word for 128, kept as columns and spread back over the lanes.
-/
import proofs.«172100_j7851200217530_2_alg».proof.Proof.KernelIdealFrame
import proofs.«172100_j7851200217530_2_alg».proof.Proof.Spec
import proofs.«172100_j7851200217530_2_alg».proof.Proof.LibKeepDims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.GraphLayer

/-! ## A block product into the zero accumulator, at `(p, q)` -/

theorem lhs_r0_0 (i : S5000x128.Idx) (kk : dot_S5000x64_S64x128_S5000x128_1_0_0_1_n_n.contr.Idx) :
    (dot_S5000x64_S64x128_S5000x128_1_0_0_1_n_n.lhsIdx i kk 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_r0_1 (i : S5000x128.Idx) (kk : dot_S5000x64_S64x128_S5000x128_1_0_0_1_n_n.contr.Idx) :
    (dot_S5000x64_S64x128_S5000x128_1_0_0_1_n_n.lhsIdx i kk 1).val = (kk ⟨0, by decide⟩).val :=
  dot_S5000x64_S64x128_S5000x128_1_0_0_1_n_n.lhsIdx_val_of_single rfl i kk
theorem rhs_r0_0 (i : S5000x128.Idx) (kk : dot_S5000x64_S64x128_S5000x128_1_0_0_1_n_n.contr.Idx) :
    (dot_S5000x64_S64x128_S5000x128_1_0_0_1_n_n.rhsIdx i kk 0).val = (kk ⟨0, by decide⟩).val :=
  dot_S5000x64_S64x128_S5000x128_1_0_0_1_n_n.rhsIdx_val_of_single rfl i kk
theorem rhs_r0_1 (i : S5000x128.Idx) (kk : dot_S5000x64_S64x128_S5000x128_1_0_0_1_n_n.contr.Idx) :
    (dot_S5000x64_S64x128_S5000x128_1_0_0_1_n_n.rhsIdx i kk 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product of a `[5000, 64]` block with a `[64, 128]` block, accumulated into zero, is at `(p, q)` the sum over the
    64 contracted channels of the left block's row `p` times the right block's column `q`. -/
theorem matmul_r0_apply (l : FVec Ideal S5000x64 .bf16) (r : FVec Ideal S64x128 .bf16) (p : Fin 5000) (q : Fin 128) :
    matmul dot_S5000x64_S64x128_S5000x128_1_0_0_1_n_n none l r (constant (F := Ideal) S5000x128 .f32 0x00000000#32) (ix2 p q)
      = ∑ k : Fin 64, l (ix2 p k) * r (ix2 k q) := by
  refine (Ideal.matmul_constant_zero_apply dot_S5000x64_S64x128_S5000x128_1_0_0_1_n_n none l r (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs_r0_0 _ _
    | ⟨1, _⟩ => exact (lhs_r0_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhs_r0_0 _ _).trans hk
    | ⟨1, _⟩ => exact rhs_r0_1 _ _)
  rw [el, er]

/-! ## The activated block -/

/-- The clamped block at `(p, q)` is the specification's activated row of row `p`, at channel `q`. -/
theorem pay2_r0_apply (v0 v1 : Vec Ideal S5000x64 .f32) (v3 : Vec Ideal S5000x1 .f32) (v7 v8 : Vec Ideal S64x128 .f32)
    (v9 : Vec Ideal S1x128 .f32) (p : Fin 5000) (q : Fin 128) :
    Gen.k0_pay2 (F := Ideal) v0 v1 v3 v7 v8 v9 (ix2 p q)
      = act (fun k : Fin 64 => v0 (ix2 p k)) (fun k : Fin 64 => v1 (ix2 p k) * v3 (ix2 p (0 : Fin 1)))
          (fun k j => v7 (ix2 k j)) (fun k j => v8 (ix2 k j)) (fun j => v9 (ix2 (0 : Fin 1) j)) q := by
  unfold Gen.k0_pay2 act
  simp only [shapeCast_self, maximumf_apply, addf_apply, matmul_r0_apply, truncf_apply, mulf_apply,
    KeepDims.broadcastTo_a1_ab_apply, broadcastTo_1b_ab_apply, broadcast_apply]
  rfl

/-! ## The mean and the squared-deviation columns -/

/-- The mean column at `(p, u)` is the mean of the activated row `p`. -/
theorem pay5_r0_apply (v0 v1 : Vec Ideal S5000x64 .f32) (v3 : Vec Ideal S5000x1 .f32) (v7 v8 : Vec Ideal S64x128 .f32)
    (v9 : Vec Ideal S1x128 .f32) (p : Fin 5000) (u : Fin 1) :
    Gen.k0_pay5 (F := Ideal) v0 v1 v3 v7 v8 v9 (ix2 p u)
      = mean (fun j : Fin 128 => Gen.k0_pay2 (F := Ideal) v0 v1 v3 v7 v8 v9 (ix2 p j)) := by
  unfold Gen.k0_pay5 mean
  simp only [divf_apply, broadcast_apply, KeepDims.shapeCast_a_a1_apply]
  exact congrArg (fun t => Ideal.div t c128) (KeepDims.laneSum_apply _ _ _ _ _ p)

/-- The squared-deviation column at `(p, u)` is the sum over the lanes of the squared deviations of the activated row
    `p` from its mean. -/
theorem pay6_r0_apply (v0 v1 : Vec Ideal S5000x64 .f32) (v3 : Vec Ideal S5000x1 .f32) (v7 v8 : Vec Ideal S64x128 .f32)
    (v9 : Vec Ideal S1x128 .f32) (p : Fin 5000) (u : Fin 1) :
    Gen.k0_pay6 (F := Ideal) v0 v1 v3 v7 v8 v9 (ix2 p u)
      = ∑ j : Fin 128,
          (Gen.k0_pay2 (F := Ideal) v0 v1 v3 v7 v8 v9 (ix2 p j) - mean (fun j : Fin 128 => Gen.k0_pay2 (F := Ideal) v0 v1 v3 v7 v8 v9 (ix2 p j)))
          * (Gen.k0_pay2 (F := Ideal) v0 v1 v3 v7 v8 v9 (ix2 p j) - mean (fun j : Fin 128 => Gen.k0_pay2 (F := Ideal) v0 v1 v3 v7 v8 v9 (ix2 p j))) := by
  unfold Gen.k0_pay6
  simp only [KeepDims.shapeCast_a_a1_apply]
  refine (KeepDims.laneSum_apply _ _ _ _ _ p).trans ?_
  refine Finset.sum_congr rfl fun j _ => ?_
  simp only [mulf_apply, subf_apply, KeepDims.broadcastTo_a1_ab_apply, pay5_r0_apply]

/-- The divisor column is the word for 128 everywhere. -/
theorem pay7_r0_apply (p : Fin 5000) (u : Fin 1) : Gen.k0_pay7 (F := Ideal) (ix2 p u) = c128 := rfl

/-! ## The normalised block -/

/-- The stored block at `(p, q)`, from the activated block `o`, the scale and shift rows, the mean column `m`, the
    squared-deviation column `s` and the divisor column `d`. -/
theorem pay1_r0_apply (o : FVec Ideal S5000x128 .f32) (g be : FVec Ideal S1x128 .f32) (m s d : FVec Ideal S5000x1 .f32)
    (p : Fin 5000) (q : Fin 128) :
    Gen.k0_pay1 (F := Ideal) o g be m s d (ix2 p q)
      = (o (ix2 p q) - m (ix2 p (0 : Fin 1)))
          * Ideal.rsqrt (Ideal.div (s (ix2 p (0 : Fin 1))) (d (ix2 p (0 : Fin 1))) + ceps)
          * g (ix2 (0 : Fin 1) q) + be (ix2 (0 : Fin 1) q) := by
  unfold Gen.k0_pay1
  simp only [addf_apply, mulf_apply, subf_apply, KeepDims.broadcastTo_a1_ab_apply, broadcastTo_1b_ab_apply]
  rfl

/-! ## The body's output block -/

theorem out0_8_apply (x0 x1 : Vec Ideal S5000x64 .f32) (x2 : Vec Ideal S5000x1 .f32) (x3 x4 : Vec Ideal S64x128 .f32)
    (x5 x6 x7 : Vec Ideal S1x128 .f32) (p : Fin 5000) (q : Fin 128) :
    Gen.out0_8 (F := Ideal) x0 x1 x2 x3 x4 x5 x6 x7 (ix2 p q)
      = normAt (fun j => act (fun k : Fin 64 => x0 (ix2 p k)) (fun k : Fin 64 => x1 (ix2 p k) * x2 (ix2 p (0 : Fin 1)))
            (fun k j => x3 (ix2 k j)) (fun k j => x4 (ix2 k j)) (fun j => x5 (ix2 (0 : Fin 1) j)) j)
          (fun j => x6 (ix2 (0 : Fin 1) j)) (fun j => x7 (ix2 (0 : Fin 1) j)) q := by
  have hz : (![0, 0] : Fin 2 → Nat) = fun _ => 0 := funext fun a => by fin_cases a <;> rfl
  unfold Gen.out0_8
  rw [View.canon_unit_zero hz]
  simp only [View.ld_unit_zero (S := S5000x64) hz, View.ld_unit_zero (S := S5000x1) hz,
    View.ld_unit_zero (S := S64x128) hz, View.ld_unit_zero (S := S1x128) hz]
  rw [pay1_r0_apply, pay5_r0_apply, pay6_r0_apply, pay7_r0_apply]
  simp only [pay2_r0_apply]
  unfold Gen.k0_pay3 Gen.k0_pay4 normAt var
  simp only [shapeCast_self]

end Cert.KernelIdeal.Body

end
-- ==== Proof.Blocks0.lean ====
import proofs.«172100_j7851200217530_2_alg».proof.Proof.KernelIdealFrame
import proofs.«172100_j7851200217530_2_alg».proof.Proof.Spec
import proofs.«172100_j7851200217530_2_alg».proof.Proof.Body0
import Idealize.ShloMosaic.Lib.Pipeline.Value
import Idealize.ShloMosaic.Lib.ValueIdx

/-!
# Region 0: from the blocks its grid points write back to the whole output array

The region's grid has 20 points; point `t` reads rows `5000 t … 5000 t + 4999` of the node features, of the
neighbour sums and of the reciprocal-degree column, reads the parameter arrays whole, and writes back rows
`5000 t … 5000 t + 4999` of the output.  What it writes back at block entry `(p, q)` is the layer's row function
of row `5000 t + p`; the twenty row blocks tile the 100000 rows, so the output array ends holding the layer
function of the arrays as the region found them, whatever those are.
-/

set_option maxRecDepth 16384

noncomputable section

namespace Cert.KernelIdeal.Blocks0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GraphLayer

variable (V : (c : Dev nD) → (b : Ref sig .tc) → Buf (Elt Ideal) ((c : Thread nD τ).loc b))

/-- The block index of every window at every grid point: the row-blocked windows sit at block row `t`, the
    parameter windows at block `(0, 0)`. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0 :=
  (by decide +kernel : ∀ t : Fin grid0.N, _)

/-- Window 0's block at point `t`, entry `(p, k)`, is the array's entry `(5000 t + p, k)`. -/
theorem blk0_apply (c : Dev nD) (t : Fin cfg0.N) (p : Fin 5000) (k : Fin 64) (r : Fin 100000) (hr : r.val = t.val * 5000 + p.val) :
    (iblk0 V c 0 t : Vec Ideal S5000x64 .f32) (ix2 p k) = V c main_arg0 (ix2 r k) := by
  obtain ⟨e0, e1, e2, e3, e4, e5, e6, e7, e8, e9, e10, e11, e12, e13, e14, e15, e16, e17⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 64 + 1 * k.val = k.val; omega

/-- Window 1's block at point `t`, entry `(p, k)`, is the array's entry `(5000 t + p, k)`. -/
theorem blk1_apply (c : Dev nD) (t : Fin cfg0.N) (p : Fin 5000) (k : Fin 64) (r : Fin 100000) (hr : r.val = t.val * 5000 + p.val) :
    (iblk0 V c 1 t : Vec Ideal S5000x64 .f32) (ix2 p k) = V c main_v18 (ix2 r k) := by
  obtain ⟨e0, e1, e2, e3, e4, e5, e6, e7, e8, e9, e10, e11, e12, e13, e14, e15, e16, e17⟩ := idx_facts t
  unfold iblk0
  rw [View.read_apply]
  show V c main_v18 _ = V c main_v18 _
  congr 1
  funext a
  apply Fin.ext
  match a with
  | ⟨0, _⟩ => show win0_1.index t (0 : Fin 2) * 5000 + 1 * p.val = r.val; omega
  | ⟨1, _⟩ => show win0_1.index t (1 : Fin 2) * 64 + 1 * k.val = k.val; omega

/-- Window 2's block at point `t`, entry `(p, k)`, is the array's entry `(5000 t + p, k)`. -/
theorem blk2_apply (c : Dev nD) (t : Fin cfg0.N) (p : Fin 5000) (k : Fin 1) (r : Fin 100000) (hr : r.val = t.val * 5000 + p.val) :
    (iblk0 V c 2 t : Vec Ideal S5000x1 .f32) (ix2 p k) = V c main_v8 (ix2 r k) := by
  obtain ⟨e0, e1, e2, e3, e4, e5, e6, e7, e8, e9, e10, e11, e12, e13, e14, e15, e16, e17⟩ := idx_facts t
  unfold iblk0
  rw [View.read_apply]
  show V c main_v8 _ = V c main_v8 _
  congr 1
  funext a
  apply Fin.ext
  match a with
  | ⟨0, _⟩ => show win0_2.index t (0 : Fin 2) * 5000 + 1 * p.val = r.val; omega
  | ⟨1, _⟩ => show win0_2.index t (1 : Fin 2) * 1 + 1 * k.val = k.val; omega

/-- Window 3's block at any point is its whole array. -/
theorem blk3_apply (c : Dev nD) (t : Fin cfg0.N) (a : Fin 64) (b : Fin 128) :
    (iblk0 V c 3 t : Vec Ideal S64x128 .f32) (ix2 a b) = V c main_arg3 (ix2 a b) := by
  obtain ⟨e0, e1, e2, e3, e4, e5, e6, e7, e8, e9, e10, e11, e12, e13, e14, e15, e16, e17⟩ := idx_facts t
  unfold iblk0
  rw [View.read_apply]
  show V c main_arg3 _ = V c main_arg3 _
  congr 1
  funext x
  apply Fin.ext
  match x with
  | ⟨0, _⟩ => show win0_3.index t (0 : Fin 2) * 64 + 1 * a.val = a.val; omega
  | ⟨1, _⟩ => show win0_3.index t (1 : Fin 2) * 128 + 1 * b.val = b.val; omega

/-- Window 4's block at any point is its whole array. -/
theorem blk4_apply (c : Dev nD) (t : Fin cfg0.N) (a : Fin 64) (b : Fin 128) :
    (iblk0 V c 4 t : Vec Ideal S64x128 .f32) (ix2 a b) = V c main_arg4 (ix2 a b) := by
  obtain ⟨e0, e1, e2, e3, e4, e5, e6, e7, e8, e9, e10, e11, e12, e13, e14, e15, e16, e17⟩ := idx_facts t
  unfold iblk0
  rw [View.read_apply]
  show V c main_arg4 _ = V c main_arg4 _
  congr 1
  funext x
  apply Fin.ext
  match x with
  | ⟨0, _⟩ => show win0_4.index t (0 : Fin 2) * 64 + 1 * a.val = a.val; omega
  | ⟨1, _⟩ => show win0_4.index t (1 : Fin 2) * 128 + 1 * b.val = b.val; omega

/-- Window 5's block at any point is its whole array. -/
theorem blk5_apply (c : Dev nD) (t : Fin cfg0.N) (a : Fin 1) (b : Fin 128) :
    (iblk0 V c 5 t : Vec Ideal S1x128 .f32) (ix2 a b) = V c main_v19 (ix2 a b) := by
  obtain ⟨e0, e1, e2, e3, e4, e5, e6, e7, e8, e9, e10, e11, e12, e13, e14, e15, e16, e17⟩ := idx_facts t
  unfold iblk0
  rw [View.read_apply]
  show V c main_v19 _ = V c main_v19 _
  congr 1
  funext x
  apply Fin.ext
  match x with
  | ⟨0, _⟩ => show win0_5.index t (0 : Fin 2) * 1 + 1 * a.val = a.val; omega
  | ⟨1, _⟩ => show win0_5.index t (1 : Fin 2) * 128 + 1 * b.val = b.val; omega

/-- Window 6's block at any point is its whole array. -/
theorem blk6_apply (c : Dev nD) (t : Fin cfg0.N) (a : Fin 1) (b : Fin 128) :
    (iblk0 V c 6 t : Vec Ideal S1x128 .f32) (ix2 a b) = V c main_v20 (ix2 a b) := by
  obtain ⟨e0, e1, e2, e3, e4, e5, e6, e7, e8, e9, e10, e11, e12, e13, e14, e15, e16, e17⟩ := idx_facts t
  unfold iblk0
  rw [View.read_apply]
  show V c main_v20 _ = V c main_v20 _
  congr 1
  funext x
  apply Fin.ext
  match x with
  | ⟨0, _⟩ => show win0_6.index t (0 : Fin 2) * 1 + 1 * a.val = a.val; omega
  | ⟨1, _⟩ => show win0_6.index t (1 : Fin 2) * 128 + 1 * b.val = b.val; omega

/-- Window 7's block at any point is its whole array. -/
theorem blk7_apply (c : Dev nD) (t : Fin cfg0.N) (a : Fin 1) (b : Fin 128) :
    (iblk0 V c 7 t : Vec Ideal S1x128 .f32) (ix2 a b) = V c main_v21 (ix2 a b) := by
  obtain ⟨e0, e1, e2, e3, e4, e5, e6, e7, e8, e9, e10, e11, e12, e13, e14, e15, e16, e17⟩ := idx_facts t
  unfold iblk0
  rw [View.read_apply]
  show V c main_v21 _ = V c main_v21 _
  congr 1
  funext x
  apply Fin.ext
  match x with
  | ⟨0, _⟩ => show win0_7.index t (0 : Fin 2) * 1 + 1 * a.val = a.val; omega
  | ⟨1, _⟩ => show win0_7.index t (1 : Fin 2) * 128 + 1 * b.val = b.val; omega

/-- Every row of `A` times its node's entry of the column `s`. -/
def scaleRows {d : ℕ} (A : (⟨2, ![100000, d]⟩ : Shape).Idx → EReal) (s : (⟨2, ![100000, 1]⟩ : Shape).Idx → EReal) :
    (⟨2, ![100000, d]⟩ : Shape).Idx → EReal :=
  fun i => A i * s (ix2 (i 0) (0 : Fin 1))

/-- The neighbour rows the region works with: the neighbour sums, each row times its node's reciprocal degree. -/
def nrows (c : Dev nD) : S100000x64.Idx → EReal :=
  scaleRows (d := 64) (V c main_v18) (V c main_v8)

/-- What the region's output array ends holding: the layer function of the arrays as the region finds them (the
    neighbour rows are the neighbour sums times the node's reciprocal degree; the three parameter rows are stored
    as `[1, 128]` arrays). -/
def G (c : Dev nD) : S100000x128.Idx → EReal :=
  layerN (N := 100000) (d := 64) (V c main_arg0) (nrows V c)
    (V c main_arg3) (V c main_arg4) (fun i => V c main_v19 (ix2 (0 : Fin 1) (i 0))) (fun i => V c main_v20 (ix2 (0 : Fin 1) (i 0))) (fun i => V c main_v21 (ix2 (0 : Fin 1) (i 0)))

/-- WHAT POINT `t` WRITES BACK is block `t` of `G`. -/
theorem flushed_eq (c : Dev nD) (t : Fin cfg0.N) :
    (dat0 V c).flushed 8 t = ((cfg0.win 8).blk t).view.read (Elt Ideal) (G V c) := by
  show (cfg0.win 8).cut (grid0.coords t) ((dat0 V c).after 8 t) = _
  rw [after0_8]
  funext j
  rw [View.read_apply]
  obtain ⟨p, q, rfl⟩ : ∃ (p : Fin 5000) (q : Fin 128), j = ix2 p q := ⟨j 0, j 1, eq_ix2 j⟩
  obtain ⟨e0, e1, e2, e3, e4, e5, e6, e7, e8, e9, e10, e11, e12, e13, e14, e15, e16, e17⟩ := idx_facts t
  -- the array index under block entry (p, q): row 5000 t + p, channel q
  obtain ⟨r, hr⟩ : ∃ r : Fin 100000, r = (((cfg0.win 8).blk t).view.emb (ix2 p q)) 0 := ⟨_, rfl⟩
  have hr0 : r.val = t.val * 5000 + p.val := by
    rw [hr]
    show win0_8.index t (0 : Fin 2) * 5000 + 1 * p.val = _
    omega
  have hq : (((cfg0.win 8).blk t).view.emb (ix2 p q)) 1 = q := Fin.ext (by
    show win0_8.index t (1 : Fin 2) * 128 + 1 * q.val = q.val
    omega)
  show out0_8 (iblk0 V c 0 t) (iblk0 V c 1 t) (iblk0 V c 2 t) (iblk0 V c 3 t) (iblk0 V c 4 t) (iblk0 V c 5 t) (iblk0 V c 6 t) (iblk0 V c 7 t) (ix2 p q)
    = normAt (fun j => actAt (V c main_arg0) (nrows V c)
        (V c main_arg3) (V c main_arg4) (fun i => V c main_v19 (ix2 (0 : Fin 1) (i 0))) ((((cfg0.win 8).blk t).view.emb (ix2 p q)) 0) j)
      (fun j => (fun i => V c main_v20 (ix2 (0 : Fin 1) (i 0))) (ix1 j)) (fun j => (fun i => V c main_v21 (ix2 (0 : Fin 1) (i 0))) (ix1 j)) ((((cfg0.win 8).blk t).view.emb (ix2 p q)) 1)
  rw [hq, ← hr]
  refine (Cert.KernelIdeal.Body.out0_8_apply (iblk0 V c 0 t) (iblk0 V c 1 t) (iblk0 V c 2 t) (iblk0 V c 3 t) (iblk0 V c 4 t) (iblk0 V c 5 t) (iblk0 V c 6 t) (iblk0 V c 7 t) p q).trans ?_
  unfold actAt nrows scaleRows
  simp only [fun k => blk0_apply V c t p k r hr0, fun k => blk1_apply V c t p k r hr0, blk2_apply V c t p (0 : Fin 1) r hr0,
    blk3_apply V c t, blk4_apply V c t, blk5_apply V c t, blk6_apply V c t, blk7_apply V c t]

/-- An index of the output array is in point `t`'s block iff each coordinate is in the block's range on its axis. -/
theorem mem_blk (t : Fin cfg0.N) (i : S100000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v22).slice (win0_8.rect t)).set ↔ _
  rw [View.set_slice_whole, Rect.mem_set_unit]
  exact Iff.rfl

/-- The twenty row blocks tile the array: row `n` is in the block of point `n / 5000`. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hlt : (i 0).val / 5000 < cfg0.N := by
    show (i 0).val / 5000 < grid0.N
    rw [N_0]
    omega
  obtain ⟨t, ht⟩ : ∃ t : Fin cfg0.N, t.val = (i 0).val / 5000 := ⟨⟨_, hlt⟩, rfl⟩
  refine ⟨t, flush0_8 t, ?_⟩
  rw [mem_blk]
  obtain ⟨e0, e1, e2, e3, e4, e5, e6, e7, e8, e9, e10, e11, e12, e13, e14, e15, e16, e17⟩ := idx_facts t
  intro a
  match a with
  | ⟨0, _⟩ =>
    show win0_8.index t (0 : Fin 2) * 5000 ≤ (i 0).val ∧ (i 0).val < win0_8.index t (0 : Fin 2) * 5000 + 5000
    omega
  | ⟨1, _⟩ =>
    show win0_8.index t (1 : Fin 2) * 128 ≤ (i 1).val ∧ (i 1).val < win0_8.index t (1 : Fin 2) * 128 + 128
    omega

/-- THE OUTPUT ARRAY after the region: `G`, for any contents `V` the region is entered with. -/
theorem final (c : Dev nD) : (dat0 V c).arrAt 8 cfg0.N = G V c :=
  (dat0 V c).arrAt_eq_of_cover 8 (G V c) (fun t _ => flushed_eq V c t) (cover)

end Cert.KernelIdeal.Blocks0

end
-- ==== Proof.Body1.lean ====
/-
  The second normalising region's body, read at an index.

  The same layer as the first normalising region's with 128 input channels: the body loads a block of node rows `x0`,
  of neighbour-sum rows `x1`, the reciprocal-degree column `x2`, two `[128, 128]` weight matrices and three parameter
  rows, and stores one `[5000, 128]` block whose value at `(p, q)` is the specification's normalised activated row
  `normAt (act …) … q` of row `p`. The variance's divisor reaches the last step as a scalar, spread there.
-/
import proofs.«172100_j7851200217530_2_alg».proof.Proof.KernelIdealFrame
import proofs.«172100_j7851200217530_2_alg».proof.Proof.Spec
import proofs.«172100_j7851200217530_2_alg».proof.Proof.LibKeepDims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.GraphLayer

/-! ## A block product into the zero accumulator, at `(p, q)` -/

theorem lhs_r1_0 (i : S5000x128.Idx) (kk : dot_S5000x128_S128x128_S5000x128_1_0_0_1_n_n.contr.Idx) :
    (dot_S5000x128_S128x128_S5000x128_1_0_0_1_n_n.lhsIdx i kk 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_r1_1 (i : S5000x128.Idx) (kk : dot_S5000x128_S128x128_S5000x128_1_0_0_1_n_n.contr.Idx) :
    (dot_S5000x128_S128x128_S5000x128_1_0_0_1_n_n.lhsIdx i kk 1).val = (kk ⟨0, by decide⟩).val :=
  dot_S5000x128_S128x128_S5000x128_1_0_0_1_n_n.lhsIdx_val_of_single rfl i kk
theorem rhs_r1_0 (i : S5000x128.Idx) (kk : dot_S5000x128_S128x128_S5000x128_1_0_0_1_n_n.contr.Idx) :
    (dot_S5000x128_S128x128_S5000x128_1_0_0_1_n_n.rhsIdx i kk 0).val = (kk ⟨0, by decide⟩).val :=
  dot_S5000x128_S128x128_S5000x128_1_0_0_1_n_n.rhsIdx_val_of_single rfl i kk
theorem rhs_r1_1 (i : S5000x128.Idx) (kk : dot_S5000x128_S128x128_S5000x128_1_0_0_1_n_n.contr.Idx) :
    (dot_S5000x128_S128x128_S5000x128_1_0_0_1_n_n.rhsIdx i kk 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a `[5000, 128]` block with a `[128, 128]` block, accumulated into zero, is at `(p, q)` the sum over the
    128 contracted channels of the left block's row `p` times the right block's column `q`. -/
theorem matmul_r1_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_r1_0 _ _
    | ⟨1, _⟩ => exact (lhs_r1_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_r1_0 _ _).trans hk
    | ⟨1, _⟩ => exact rhs_r1_1 _ _)
  rw [el, er]

/-! ## The activated block -/

/-- The clamped block at `(p, q)` is the specification's activated row of row `p`, at channel `q`. -/
theorem pay2_r1_apply (v0 v1 : Vec Ideal S5000x128 .f32) (v3 : Vec Ideal S5000x1 .f32) (v7 v8 : Vec Ideal S128x128 .f32)
    (v9 : Vec Ideal S1x128 .f32) (p : Fin 5000) (q : Fin 128) :
    Gen.k1_pay2 (F := Ideal) v0 v1 v3 v7 v8 v9 (ix2 p q)
      = act (fun k : Fin 128 => v0 (ix2 p k)) (fun k : Fin 128 => v1 (ix2 p k) * v3 (ix2 p (0 : Fin 1)))
          (fun k j => v7 (ix2 k j)) (fun k j => v8 (ix2 k j)) (fun j => v9 (ix2 (0 : Fin 1) j)) q := by
  unfold Gen.k1_pay2 act
  simp only [shapeCast_self, maximumf_apply, addf_apply, matmul_r1_apply, truncf_apply, mulf_apply,
    KeepDims.broadcastTo_a1_ab_apply, broadcastTo_1b_ab_apply, broadcast_apply]
  rfl

/-! ## The mean and the squared-deviation columns -/

/-- The mean column at `(p, u)` is the mean of the activated row `p`. -/
theorem pay5_r1_apply (v0 v1 : Vec Ideal S5000x128 .f32) (v3 : Vec Ideal S5000x1 .f32) (v7 v8 : Vec Ideal S128x128 .f32)
    (v9 : Vec Ideal S1x128 .f32) (p : Fin 5000) (u : Fin 1) :
    Gen.k1_pay5 (F := Ideal) v0 v1 v3 v7 v8 v9 (ix2 p u)
      = mean (fun j : Fin 128 => Gen.k1_pay2 (F := Ideal) v0 v1 v3 v7 v8 v9 (ix2 p j)) := by
  unfold Gen.k1_pay5 mean
  simp only [divf_apply, broadcast_apply, KeepDims.shapeCast_a_a1_apply]
  exact congrArg (fun t => Ideal.div t c128) (KeepDims.laneSum_apply _ _ _ _ _ p)

/-- The squared-deviation column at `(p, u)` is the sum over the lanes of the squared deviations of the activated row
    `p` from its mean. -/
theorem pay6_r1_apply (v0 v1 : Vec Ideal S5000x128 .f32) (v3 : Vec Ideal S5000x1 .f32) (v7 v8 : Vec Ideal S128x128 .f32)
    (v9 : Vec Ideal S1x128 .f32) (p : Fin 5000) (u : Fin 1) :
    Gen.k1_pay6 (F := Ideal) v0 v1 v3 v7 v8 v9 (ix2 p u)
      = ∑ j : Fin 128,
          (Gen.k1_pay2 (F := Ideal) v0 v1 v3 v7 v8 v9 (ix2 p j) - mean (fun j : Fin 128 => Gen.k1_pay2 (F := Ideal) v0 v1 v3 v7 v8 v9 (ix2 p j)))
          * (Gen.k1_pay2 (F := Ideal) v0 v1 v3 v7 v8 v9 (ix2 p j) - mean (fun j : Fin 128 => Gen.k1_pay2 (F := Ideal) v0 v1 v3 v7 v8 v9 (ix2 p j))) := by
  unfold Gen.k1_pay6
  simp only [KeepDims.shapeCast_a_a1_apply]
  refine (KeepDims.laneSum_apply _ _ _ _ _ p).trans ?_
  refine Finset.sum_congr rfl fun j _ => ?_
  simp only [mulf_apply, subf_apply, KeepDims.broadcastTo_a1_ab_apply, pay5_r1_apply]

/-! ## The normalised block -/

/-- The stored block at `(p, q)`, from the activated block `o`, the scale and shift rows, the mean column `m`, the
    squared-deviation column `s` and the divisor `d`, a scalar spread over the column. -/
theorem pay1_r1_apply (o : FVec Ideal S5000x128 .f32) (g be : FVec Ideal S1x128 .f32) (m s : FVec Ideal S5000x1 .f32)
    (d : Ideal .f32) (p : Fin 5000) (q : Fin 128) :
    Gen.k1_pay1 (F := Ideal) o g be m s d (ix2 p q)
      = (o (ix2 p q) - m (ix2 p (0 : Fin 1)))
          * Ideal.rsqrt (Ideal.div (s (ix2 p (0 : Fin 1))) d + ceps)
          * g (ix2 (0 : Fin 1) q) + be (ix2 (0 : Fin 1) q) := by
  unfold Gen.k1_pay1
  simp only [addf_apply, mulf_apply, subf_apply, KeepDims.broadcastTo_a1_ab_apply, broadcastTo_1b_ab_apply]
  rfl

/-! ## The body's output block -/

theorem out1_8_apply (x0 x1 : Vec Ideal S5000x128 .f32) (x2 : Vec Ideal S5000x1 .f32) (x3 x4 : Vec Ideal S128x128 .f32)
    (x5 x6 x7 : Vec Ideal S1x128 .f32) (p : Fin 5000) (q : Fin 128) :
    Gen.out1_8 (F := Ideal) x0 x1 x2 x3 x4 x5 x6 x7 (ix2 p q)
      = normAt (fun j => act (fun k : Fin 128 => x0 (ix2 p k)) (fun k : Fin 128 => x1 (ix2 p k) * x2 (ix2 p (0 : Fin 1)))
            (fun k j => x3 (ix2 k j)) (fun k j => x4 (ix2 k j)) (fun j => x5 (ix2 (0 : Fin 1) j)) j)
          (fun j => x6 (ix2 (0 : Fin 1) j)) (fun j => x7 (ix2 (0 : Fin 1) j)) q := by
  have hz : (![0, 0] : Fin 2 → Nat) = fun _ => 0 := funext fun a => by fin_cases a <;> rfl
  unfold Gen.out1_8
  rw [View.canon_unit_zero hz]
  simp only [View.ld_unit_zero (S := S5000x128) hz, View.ld_unit_zero (S := S5000x1) hz,
    View.ld_unit_zero (S := S128x128) hz, View.ld_unit_zero (S := S1x128) hz]
  rw [pay1_r1_apply, pay5_r1_apply, pay6_r1_apply]
  simp only [pay2_r1_apply]
  unfold Gen.k1_pay3 Gen.k1_pay4 normAt var
  simp only [shapeCast_self]
  rfl

end Cert.KernelIdeal.Body

end
-- ==== Proof.Blocks1.lean ====
import proofs.«172100_j7851200217530_2_alg».proof.Proof.KernelIdealFrame
import proofs.«172100_j7851200217530_2_alg».proof.Proof.Spec
import proofs.«172100_j7851200217530_2_alg».proof.Proof.Body1
import Idealize.ShloMosaic.Lib.Pipeline.Value
import Idealize.ShloMosaic.Lib.ValueIdx

/-!
# Region 1: from the blocks its grid points write back to the whole output array

The region's grid has 20 points; point `t` reads rows `5000 t … 5000 t + 4999` of the node features, of the
neighbour sums and of the reciprocal-degree column, reads the parameter arrays whole, and writes back rows
`5000 t … 5000 t + 4999` of the output.  What it writes back at block entry `(p, q)` is the layer's row function
of row `5000 t + p`; the twenty row blocks tile the 100000 rows, so the output array ends holding the layer
function of the arrays as the region found them, whatever those are.
-/

set_option maxRecDepth 16384

noncomputable section

namespace Cert.KernelIdeal.Blocks1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GraphLayer

variable (V : (c : Dev nD) → (b : Ref sig .tc) → Buf (Elt Ideal) ((c : Thread nD τ).loc b))

/-- The block index of every window at every grid point: the row-blocked windows sit at block row `t`, the
    parameter windows at block `(0, 0)`. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0 :=
  (by decide +kernel : ∀ t : Fin grid1.N, _)

/-- Window 0's block at point `t`, entry `(p, k)`, is the array's entry `(5000 t + p, k)`. -/
theorem blk0_apply (c : Dev nD) (t : Fin cfg1.N) (p : Fin 5000) (k : Fin 128) (r : Fin 100000) (hr : r.val = t.val * 5000 + p.val) :
    (iblk1 V c 0 t : Vec Ideal S5000x128 .f32) (ix2 p k) = V c main_v22 (ix2 r k) := by
  obtain ⟨e0, e1, e2, e3, e4, e5, e6, e7, e8, e9, e10, e11, e12, e13, e14, e15, e16, e17⟩ := idx_facts t
  unfold iblk1
  rw [View.read_apply]
  show V c main_v22 _ = V c main_v22 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- Window 1's block at point `t`, entry `(p, k)`, is the array's entry `(5000 t + p, k)`. -/
theorem blk1_apply (c : Dev nD) (t : Fin cfg1.N) (p : Fin 5000) (k : Fin 128) (r : Fin 100000) (hr : r.val = t.val * 5000 + p.val) :
    (iblk1 V c 1 t : Vec Ideal S5000x128 .f32) (ix2 p k) = V c main_v32 (ix2 r k) := by
  obtain ⟨e0, e1, e2, e3, e4, e5, e6, e7, e8, e9, e10, e11, e12, e13, e14, e15, e16, e17⟩ := idx_facts t
  unfold iblk1
  rw [View.read_apply]
  show V c main_v32 _ = V c main_v32 _
  congr 1
  funext a
  apply Fin.ext
  match a with
  | ⟨0, _⟩ => show win1_1.index t (0 : Fin 2) * 5000 + 1 * p.val = r.val; omega
  | ⟨1, _⟩ => show win1_1.index t (1 : Fin 2) * 128 + 1 * k.val = k.val; omega

/-- Window 2's block at point `t`, entry `(p, k)`, is the array's entry `(5000 t + p, k)`. -/
theorem blk2_apply (c : Dev nD) (t : Fin cfg1.N) (p : Fin 5000) (k : Fin 1) (r : Fin 100000) (hr : r.val = t.val * 5000 + p.val) :
    (iblk1 V c 2 t : Vec Ideal S5000x1 .f32) (ix2 p k) = V c main_v8 (ix2 r k) := by
  obtain ⟨e0, e1, e2, e3, e4, e5, e6, e7, e8, e9, e10, e11, e12, e13, e14, e15, e16, e17⟩ := idx_facts t
  unfold iblk1
  rw [View.read_apply]
  show V c main_v8 _ = V c main_v8 _
  congr 1
  funext a
  apply Fin.ext
  match a with
  | ⟨0, _⟩ => show win1_2.index t (0 : Fin 2) * 5000 + 1 * p.val = r.val; omega
  | ⟨1, _⟩ => show win1_2.index t (1 : Fin 2) * 1 + 1 * k.val = k.val; omega

/-- Window 3's block at any point is its whole array. -/
theorem blk3_apply (c : Dev nD) (t : Fin cfg1.N) (a : Fin 128) (b : Fin 128) :
    (iblk1 V c 3 t : Vec Ideal S128x128 .f32) (ix2 a b) = V c main_arg6 (ix2 a b) := by
  obtain ⟨e0, e1, e2, e3, e4, e5, e6, e7, e8, e9, e10, e11, e12, e13, e14, e15, e16, e17⟩ := idx_facts t
  unfold iblk1
  rw [View.read_apply]
  show V c main_arg6 _ = V c main_arg6 _
  congr 1
  funext x
  apply Fin.ext
  match x with
  | ⟨0, _⟩ => show win1_3.index t (0 : Fin 2) * 128 + 1 * a.val = a.val; omega
  | ⟨1, _⟩ => show win1_3.index t (1 : Fin 2) * 128 + 1 * b.val = b.val; omega

/-- Window 4's block at any point is its whole array. -/
theorem blk4_apply (c : Dev nD) (t : Fin cfg1.N) (a : Fin 128) (b : Fin 128) :
    (iblk1 V c 4 t : Vec Ideal S128x128 .f32) (ix2 a b) = V c main_arg7 (ix2 a b) := by
  obtain ⟨e0, e1, e2, e3, e4, e5, e6, e7, e8, e9, e10, e11, e12, e13, e14, e15, e16, e17⟩ := idx_facts t
  unfold iblk1
  rw [View.read_apply]
  show V c main_arg7 _ = V c main_arg7 _
  congr 1
  funext x
  apply Fin.ext
  match x with
  | ⟨0, _⟩ => show win1_4.index t (0 : Fin 2) * 128 + 1 * a.val = a.val; omega
  | ⟨1, _⟩ => show win1_4.index t (1 : Fin 2) * 128 + 1 * b.val = b.val; omega

/-- Window 5's block at any point is its whole array. -/
theorem blk5_apply (c : Dev nD) (t : Fin cfg1.N) (a : Fin 1) (b : Fin 128) :
    (iblk1 V c 5 t : Vec Ideal S1x128 .f32) (ix2 a b) = V c main_v33 (ix2 a b) := by
  obtain ⟨e0, e1, e2, e3, e4, e5, e6, e7, e8, e9, e10, e11, e12, e13, e14, e15, e16, e17⟩ := idx_facts t
  unfold iblk1
  rw [View.read_apply]
  show V c main_v33 _ = V c main_v33 _
  congr 1
  funext x
  apply Fin.ext
  match x with
  | ⟨0, _⟩ => show win1_5.index t (0 : Fin 2) * 1 + 1 * a.val = a.val; omega
  | ⟨1, _⟩ => show win1_5.index t (1 : Fin 2) * 128 + 1 * b.val = b.val; omega

/-- Window 6's block at any point is its whole array. -/
theorem blk6_apply (c : Dev nD) (t : Fin cfg1.N) (a : Fin 1) (b : Fin 128) :
    (iblk1 V c 6 t : Vec Ideal S1x128 .f32) (ix2 a b) = V c main_v34 (ix2 a b) := by
  obtain ⟨e0, e1, e2, e3, e4, e5, e6, e7, e8, e9, e10, e11, e12, e13, e14, e15, e16, e17⟩ := idx_facts t
  unfold iblk1
  rw [View.read_apply]
  show V c main_v34 _ = V c main_v34 _
  congr 1
  funext x
  apply Fin.ext
  match x with
  | ⟨0, _⟩ => show win1_6.index t (0 : Fin 2) * 1 + 1 * a.val = a.val; omega
  | ⟨1, _⟩ => show win1_6.index t (1 : Fin 2) * 128 + 1 * b.val = b.val; omega

/-- Window 7's block at any point is its whole array. -/
theorem blk7_apply (c : Dev nD) (t : Fin cfg1.N) (a : Fin 1) (b : Fin 128) :
    (iblk1 V c 7 t : Vec Ideal S1x128 .f32) (ix2 a b) = V c main_v35 (ix2 a b) := by
  obtain ⟨e0, e1, e2, e3, e4, e5, e6, e7, e8, e9, e10, e11, e12, e13, e14, e15, e16, e17⟩ := idx_facts t
  unfold iblk1
  rw [View.read_apply]
  show V c main_v35 _ = V c main_v35 _
  congr 1
  funext x
  apply Fin.ext
  match x with
  | ⟨0, _⟩ => show win1_7.index t (0 : Fin 2) * 1 + 1 * a.val = a.val; omega
  | ⟨1, _⟩ => show win1_7.index t (1 : Fin 2) * 128 + 1 * b.val = b.val; omega

/-- Every row of `A` times its node's entry of the column `s`. -/
def scaleRows {d : ℕ} (A : (⟨2, ![100000, d]⟩ : Shape).Idx → EReal) (s : (⟨2, ![100000, 1]⟩ : Shape).Idx → EReal) :
    (⟨2, ![100000, d]⟩ : Shape).Idx → EReal :=
  fun i => A i * s (ix2 (i 0) (0 : Fin 1))

/-- The neighbour rows the region works with: the neighbour sums, each row times its node's reciprocal degree. -/
def nrows (c : Dev nD) : S100000x128.Idx → EReal :=
  scaleRows (d := 128) (V c main_v32) (V c main_v8)

/-- What the region's output array ends holding: the layer function of the arrays as the region finds them (the
    neighbour rows are the neighbour sums times the node's reciprocal degree; the three parameter rows are stored
    as `[1, 128]` arrays). -/
def G (c : Dev nD) : S100000x128.Idx → EReal :=
  layerN (N := 100000) (d := 128) (V c main_v22) (nrows V c)
    (V c main_arg6) (V c main_arg7) (fun i => V c main_v33 (ix2 (0 : Fin 1) (i 0))) (fun i => V c main_v34 (ix2 (0 : Fin 1) (i 0))) (fun i => V c main_v35 (ix2 (0 : Fin 1) (i 0)))

/-- WHAT POINT `t` WRITES BACK is block `t` of `G`. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  funext j
  rw [View.read_apply]
  obtain ⟨p, q, rfl⟩ : ∃ (p : Fin 5000) (q : Fin 128), j = ix2 p q := ⟨j 0, j 1, eq_ix2 j⟩
  obtain ⟨e0, e1, e2, e3, e4, e5, e6, e7, e8, e9, e10, e11, e12, e13, e14, e15, e16, e17⟩ := idx_facts t
  -- the array index under block entry (p, q): row 5000 t + p, channel q
  obtain ⟨r, hr⟩ : ∃ r : Fin 100000, r = (((cfg1.win 8).blk t).view.emb (ix2 p q)) 0 := ⟨_, rfl⟩
  have hr0 : r.val = t.val * 5000 + p.val := by
    rw [hr]
    show win1_8.index t (0 : Fin 2) * 5000 + 1 * p.val = _
    omega
  have hq : (((cfg1.win 8).blk t).view.emb (ix2 p q)) 1 = q := Fin.ext (by
    show win1_8.index t (1 : Fin 2) * 128 + 1 * q.val = q.val
    omega)
  show out1_8 (iblk1 V c 0 t) (iblk1 V c 1 t) (iblk1 V c 2 t) (iblk1 V c 3 t) (iblk1 V c 4 t) (iblk1 V c 5 t) (iblk1 V c 6 t) (iblk1 V c 7 t) (ix2 p q)
    = normAt (fun j => actAt (V c main_v22) (nrows V c)
        (V c main_arg6) (V c main_arg7) (fun i => V c main_v33 (ix2 (0 : Fin 1) (i 0))) ((((cfg1.win 8).blk t).view.emb (ix2 p q)) 0) j)
      (fun j => (fun i => V c main_v34 (ix2 (0 : Fin 1) (i 0))) (ix1 j)) (fun j => (fun i => V c main_v35 (ix2 (0 : Fin 1) (i 0))) (ix1 j)) ((((cfg1.win 8).blk t).view.emb (ix2 p q)) 1)
  rw [hq, ← hr]
  refine (Cert.KernelIdeal.Body.out1_8_apply (iblk1 V c 0 t) (iblk1 V c 1 t) (iblk1 V c 2 t) (iblk1 V c 3 t) (iblk1 V c 4 t) (iblk1 V c 5 t) (iblk1 V c 6 t) (iblk1 V c 7 t) p q).trans ?_
  unfold actAt nrows scaleRows
  simp only [fun k => blk0_apply V c t p k r hr0, fun k => blk1_apply V c t p k r hr0, blk2_apply V c t p (0 : Fin 1) r hr0,
    blk3_apply V c t, blk4_apply V c t, blk5_apply V c t, blk6_apply V c t, blk7_apply V c t]

/-- An index of the output array is in point `t`'s block iff each coordinate is in the block's range on its axis. -/
theorem mem_blk (t : Fin cfg1.N) (i : S100000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v36).slice (win1_8.rect t)).set ↔ _
  rw [View.set_slice_whole, Rect.mem_set_unit]
  exact Iff.rfl

/-- The twenty row blocks tile the array: row `n` is in the block of point `n / 5000`. -/
theorem cover (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hlt : (i 0).val / 5000 < cfg1.N := by
    show (i 0).val / 5000 < grid1.N
    rw [N_1]
    omega
  obtain ⟨t, ht⟩ : ∃ t : Fin cfg1.N, t.val = (i 0).val / 5000 := ⟨⟨_, hlt⟩, rfl⟩
  refine ⟨t, flush1_8 t, ?_⟩
  rw [mem_blk]
  obtain ⟨e0, e1, e2, e3, e4, e5, e6, e7, e8, e9, e10, e11, e12, e13, e14, e15, e16, e17⟩ := idx_facts t
  intro a
  match a with
  | ⟨0, _⟩ =>
    show win1_8.index t (0 : Fin 2) * 5000 ≤ (i 0).val ∧ (i 0).val < win1_8.index t (0 : Fin 2) * 5000 + 5000
    omega
  | ⟨1, _⟩ =>
    show win1_8.index t (1 : Fin 2) * 128 ≤ (i 1).val ∧ (i 1).val < win1_8.index t (1 : Fin 2) * 128 + 128
    omega

/-- THE OUTPUT ARRAY after the region: `G`, for any contents `V` the region is entered with. -/
theorem final (c : Dev nD) : (dat1 V c).arrAt 8 cfg1.N = G V c :=
  (dat1 V c).arrAt_eq_of_cover 8 (G V c) (fun t _ => flushed_eq V c t) (cover)

end Cert.KernelIdeal.Blocks1

end
-- ==== Proof.Body2.lean ====
/-
  The plain region's body, read at an index.

  The layer without normalisation: the body loads a block of node rows `x0`, of neighbour-sum rows `x1`, the
  reciprocal-degree column `x2`, two `[128, 128]` weight matrices and the bias row, and stores one `[5000, 128]` block
  whose value at `(p, q)` is the specification's activated row `act … q` of row `p`: two block products as sums over the
  128 input channels, the bias row spread over the rows, and the clamp as a maximum with the zero word.
-/
import proofs.«172100_j7851200217530_2_alg».proof.Proof.KernelIdealFrame
import proofs.«172100_j7851200217530_2_alg».proof.Proof.Spec
import proofs.«172100_j7851200217530_2_alg».proof.Proof.LibKeepDims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.GraphLayer

/-! ## A block product into the zero accumulator, at `(p, q)` -/

theorem lhs_r2_0 (i : S5000x128.Idx) (kk : dot_S5000x128_S128x128_S5000x128_1_0_0_1_n_n.contr.Idx) :
    (dot_S5000x128_S128x128_S5000x128_1_0_0_1_n_n.lhsIdx i kk 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_r2_1 (i : S5000x128.Idx) (kk : dot_S5000x128_S128x128_S5000x128_1_0_0_1_n_n.contr.Idx) :
    (dot_S5000x128_S128x128_S5000x128_1_0_0_1_n_n.lhsIdx i kk 1).val = (kk ⟨0, by decide⟩).val :=
  dot_S5000x128_S128x128_S5000x128_1_0_0_1_n_n.lhsIdx_val_of_single rfl i kk
theorem rhs_r2_0 (i : S5000x128.Idx) (kk : dot_S5000x128_S128x128_S5000x128_1_0_0_1_n_n.contr.Idx) :
    (dot_S5000x128_S128x128_S5000x128_1_0_0_1_n_n.rhsIdx i kk 0).val = (kk ⟨0, by decide⟩).val :=
  dot_S5000x128_S128x128_S5000x128_1_0_0_1_n_n.rhsIdx_val_of_single rfl i kk
theorem rhs_r2_1 (i : S5000x128.Idx) (kk : dot_S5000x128_S128x128_S5000x128_1_0_0_1_n_n.contr.Idx) :
    (dot_S5000x128_S128x128_S5000x128_1_0_0_1_n_n.rhsIdx i kk 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a `[5000, 128]` block with a `[128, 128]` block, accumulated into zero, is at `(p, q)` the sum over the
    128 contracted channels of the left block's row `p` times the right block's column `q`. -/
theorem matmul_r2_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_r2_0 _ _
    | ⟨1, _⟩ => exact (lhs_r2_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_r2_0 _ _).trans hk
    | ⟨1, _⟩ => exact rhs_r2_1 _ _)
  rw [el, er]

/-! ## The activated block -/

/-- The clamped block at `(p, q)` is the specification's activated row of row `p`, at channel `q`. -/
theorem pay1_r2_apply (v0 v1 : Vec Ideal S5000x128 .f32) (v3 : Vec Ideal S5000x1 .f32) (v7 v8 : Vec Ideal S128x128 .f32)
    (v9 : Vec Ideal S1x128 .f32) (p : Fin 5000) (q : Fin 128) :
    Gen.k2_pay1 (F := Ideal) v0 v1 v3 v7 v8 v9 (ix2 p q)
      = act (fun k : Fin 128 => v0 (ix2 p k)) (fun k : Fin 128 => v1 (ix2 p k) * v3 (ix2 p (0 : Fin 1)))
          (fun k j => v7 (ix2 k j)) (fun k j => v8 (ix2 k j)) (fun j => v9 (ix2 (0 : Fin 1) j)) q := by
  unfold Gen.k2_pay1 act
  simp only [shapeCast_self, maximumf_apply, addf_apply, matmul_r2_apply, truncf_apply, mulf_apply,
    KeepDims.broadcastTo_a1_ab_apply, broadcastTo_1b_ab_apply, broadcast_apply]
  rfl

/-! ## The body's output block -/

theorem out2_6_apply (x0 x1 : Vec Ideal S5000x128 .f32) (x2 : Vec Ideal S5000x1 .f32) (x3 x4 : Vec Ideal S128x128 .f32)
    (x5 : Vec Ideal S1x128 .f32) (p : Fin 5000) (q : Fin 128) :
    Gen.out2_6 (F := Ideal) x0 x1 x2 x3 x4 x5 (ix2 p q)
      = act (fun k : Fin 128 => x0 (ix2 p k)) (fun k : Fin 128 => x1 (ix2 p k) * x2 (ix2 p (0 : Fin 1)))
          (fun k j => x3 (ix2 k j)) (fun k j => x4 (ix2 k j)) (fun j => x5 (ix2 (0 : Fin 1) j)) q := by
  have hz : (![0, 0] : Fin 2 → Nat) = fun _ => 0 := funext fun a => by fin_cases a <;> rfl
  unfold Gen.out2_6
  rw [View.canon_unit_zero hz]
  simp only [View.ld_unit_zero (S := S5000x128) hz, View.ld_unit_zero (S := S5000x1) hz,
    View.ld_unit_zero (S := S128x128) hz, View.ld_unit_zero (S := S1x128) hz]
  exact pay1_r2_apply x0 x1 x2 x3 x4 x5 p q

end Cert.KernelIdeal.Body

end
-- ==== Proof.Blocks2.lean ====
import proofs.«172100_j7851200217530_2_alg».proof.Proof.KernelIdealFrame
import proofs.«172100_j7851200217530_2_alg».proof.Proof.Spec
import proofs.«172100_j7851200217530_2_alg».proof.Proof.Body2
import Idealize.ShloMosaic.Lib.Pipeline.Value
import Idealize.ShloMosaic.Lib.ValueIdx

/-!
# Region 2: from the blocks its grid points write back to the whole output array

The region's grid has 20 points; point `t` reads rows `5000 t … 5000 t + 4999` of the node features, of the
neighbour sums and of the reciprocal-degree column, reads the parameter arrays whole, and writes back rows
`5000 t … 5000 t + 4999` of the output.  What it writes back at block entry `(p, q)` is the layer's row function
of row `5000 t + p`; the twenty row blocks tile the 100000 rows, so the output array ends holding the layer
function of the arrays as the region found them, whatever those are.
-/

set_option maxRecDepth 16384

noncomputable section

namespace Cert.KernelIdeal.Blocks2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.GraphLayer

variable (V : (c : Dev nD) → (b : Ref sig .tc) → Buf (Elt Ideal) ((c : Thread nD τ).loc b))

/-- The block index of every window at every grid point: the row-blocked windows sit at block row `t`, the
    parameter windows at block `(0, 0)`. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-- Window 0's block at point `t`, entry `(p, k)`, is the array's entry `(5000 t + p, k)`. -/
theorem blk0_apply (c : Dev nD) (t : Fin cfg2.N) (p : Fin 5000) (k : Fin 128) (r : Fin 100000) (hr : r.val = t.val * 5000 + p.val) :
    (iblk2 V c 0 t : Vec Ideal S5000x128 .f32) (ix2 p k) = V c main_v36 (ix2 r k) := by
  obtain ⟨e0, e1, e2, e3, e4, e5, e6, e7, e8, e9, e10, e11, e12, e13⟩ := idx_facts t
  unfold iblk2
  rw [View.read_apply]
  show V c main_v36 _ = V c main_v36 _
  congr 1
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- Window 1's block at point `t`, entry `(p, k)`, is the array's entry `(5000 t + p, k)`. -/
theorem blk1_apply (c : Dev nD) (t : Fin cfg2.N) (p : Fin 5000) (k : Fin 128) (r : Fin 100000) (hr : r.val = t.val * 5000 + p.val) :
    (iblk2 V c 1 t : Vec Ideal S5000x128 .f32) (ix2 p k) = V c main_v46 (ix2 r k) := by
  obtain ⟨e0, e1, e2, e3, e4, e5, e6, e7, e8, e9, e10, e11, e12, e13⟩ := idx_facts t
  unfold iblk2
  rw [View.read_apply]
  show V c main_v46 _ = V c main_v46 _
  congr 1
  funext a
  apply Fin.ext
  match a with
  | ⟨0, _⟩ => show win2_1.index t (0 : Fin 2) * 5000 + 1 * p.val = r.val; omega
  | ⟨1, _⟩ => show win2_1.index t (1 : Fin 2) * 128 + 1 * k.val = k.val; omega

/-- Window 2's block at point `t`, entry `(p, k)`, is the array's entry `(5000 t + p, k)`. -/
theorem blk2_apply (c : Dev nD) (t : Fin cfg2.N) (p : Fin 5000) (k : Fin 1) (r : Fin 100000) (hr : r.val = t.val * 5000 + p.val) :
    (iblk2 V c 2 t : Vec Ideal S5000x1 .f32) (ix2 p k) = V c main_v8 (ix2 r k) := by
  obtain ⟨e0, e1, e2, e3, e4, e5, e6, e7, e8, e9, e10, e11, e12, e13⟩ := idx_facts t
  unfold iblk2
  rw [View.read_apply]
  show V c main_v8 _ = V c main_v8 _
  congr 1
  funext a
  apply Fin.ext
  match a with
  | ⟨0, _⟩ => show win2_2.index t (0 : Fin 2) * 5000 + 1 * p.val = r.val; omega
  | ⟨1, _⟩ => show win2_2.index t (1 : Fin 2) * 1 + 1 * k.val = k.val; omega

/-- Window 3's block at any point is its whole array. -/
theorem blk3_apply (c : Dev nD) (t : Fin cfg2.N) (a : Fin 128) (b : Fin 128) :
    (iblk2 V c 3 t : Vec Ideal S128x128 .f32) (ix2 a b) = V c main_arg9 (ix2 a b) := by
  obtain ⟨e0, e1, e2, e3, e4, e5, e6, e7, e8, e9, e10, e11, e12, e13⟩ := idx_facts t
  unfold iblk2
  rw [View.read_apply]
  show V c main_arg9 _ = V c main_arg9 _
  congr 1
  funext x
  apply Fin.ext
  match x with
  | ⟨0, _⟩ => show win2_3.index t (0 : Fin 2) * 128 + 1 * a.val = a.val; omega
  | ⟨1, _⟩ => show win2_3.index t (1 : Fin 2) * 128 + 1 * b.val = b.val; omega

/-- Window 4's block at any point is its whole array. -/
theorem blk4_apply (c : Dev nD) (t : Fin cfg2.N) (a : Fin 128) (b : Fin 128) :
    (iblk2 V c 4 t : Vec Ideal S128x128 .f32) (ix2 a b) = V c main_arg10 (ix2 a b) := by
  obtain ⟨e0, e1, e2, e3, e4, e5, e6, e7, e8, e9, e10, e11, e12, e13⟩ := idx_facts t
  unfold iblk2
  rw [View.read_apply]
  show V c main_arg10 _ = V c main_arg10 _
  congr 1
  funext x
  apply Fin.ext
  match x with
  | ⟨0, _⟩ => show win2_4.index t (0 : Fin 2) * 128 + 1 * a.val = a.val; omega
  | ⟨1, _⟩ => show win2_4.index t (1 : Fin 2) * 128 + 1 * b.val = b.val; omega

/-- Window 5's block at any point is its whole array. -/
theorem blk5_apply (c : Dev nD) (t : Fin cfg2.N) (a : Fin 1) (b : Fin 128) :
    (iblk2 V c 5 t : Vec Ideal S1x128 .f32) (ix2 a b) = V c main_v47 (ix2 a b) := by
  obtain ⟨e0, e1, e2, e3, e4, e5, e6, e7, e8, e9, e10, e11, e12, e13⟩ := idx_facts t
  unfold iblk2
  rw [View.read_apply]
  show V c main_v47 _ = V c main_v47 _
  congr 1
  funext x
  apply Fin.ext
  match x with
  | ⟨0, _⟩ => show win2_5.index t (0 : Fin 2) * 1 + 1 * a.val = a.val; omega
  | ⟨1, _⟩ => show win2_5.index t (1 : Fin 2) * 128 + 1 * b.val = b.val; omega

/-- Every row of `A` times its node's entry of the column `s`. -/
def scaleRows {d : ℕ} (A : (⟨2, ![100000, d]⟩ : Shape).Idx → EReal) (s : (⟨2, ![100000, 1]⟩ : Shape).Idx → EReal) :
    (⟨2, ![100000, d]⟩ : Shape).Idx → EReal :=
  fun i => A i * s (ix2 (i 0) (0 : Fin 1))

/-- The neighbour rows the region works with: the neighbour sums, each row times its node's reciprocal degree. -/
def nrows (c : Dev nD) : S100000x128.Idx → EReal :=
  scaleRows (d := 128) (V c main_v46) (V c main_v8)

/-- What the region's output array ends holding: the layer function of the arrays as the region finds them (the
    neighbour rows are the neighbour sums times the node's reciprocal degree; the three parameter rows are stored
    as `[1, 128]` arrays). -/
def G (c : Dev nD) : S100000x128.Idx → EReal :=
  layerP (N := 100000) (d := 128) (V c main_v36) (nrows V c)
    (V c main_arg9) (V c main_arg10) (fun i => V c main_v47 (ix2 (0 : Fin 1) (i 0)))

/-- WHAT POINT `t` WRITES BACK is block `t` of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  funext j
  rw [View.read_apply]
  obtain ⟨p, q, rfl⟩ : ∃ (p : Fin 5000) (q : Fin 128), j = ix2 p q := ⟨j 0, j 1, eq_ix2 j⟩
  obtain ⟨e0, e1, e2, e3, e4, e5, e6, e7, e8, e9, e10, e11, e12, e13⟩ := idx_facts t
  -- the array index under block entry (p, q): row 5000 t + p, channel q
  obtain ⟨r, hr⟩ : ∃ r : Fin 100000, r = (((cfg2.win 6).blk t).view.emb (ix2 p q)) 0 := ⟨_, rfl⟩
  have hr0 : r.val = t.val * 5000 + p.val := by
    rw [hr]
    show win2_6.index t (0 : Fin 2) * 5000 + 1 * p.val = _
    omega
  have hq : (((cfg2.win 6).blk t).view.emb (ix2 p q)) 1 = q := Fin.ext (by
    show win2_6.index t (1 : Fin 2) * 128 + 1 * q.val = q.val
    omega)
  show out2_6 (iblk2 V c 0 t) (iblk2 V c 1 t) (iblk2 V c 2 t) (iblk2 V c 3 t) (iblk2 V c 4 t) (iblk2 V c 5 t) (ix2 p q)
    = actAt (V c main_v36) (nrows V c)
        (V c main_arg9) (V c main_arg10) (fun i => V c main_v47 (ix2 (0 : Fin 1) (i 0))) ((((cfg2.win 6).blk t).view.emb (ix2 p q)) 0) ((((cfg2.win 6).blk t).view.emb (ix2 p q)) 1)
  rw [hq, ← hr]
  refine (Cert.KernelIdeal.Body.out2_6_apply (iblk2 V c 0 t) (iblk2 V c 1 t) (iblk2 V c 2 t) (iblk2 V c 3 t) (iblk2 V c 4 t) (iblk2 V c 5 t) p q).trans ?_
  unfold actAt nrows scaleRows
  simp only [fun k => blk0_apply V c t p k r hr0, fun k => blk1_apply V c t p k r hr0, blk2_apply V c t p (0 : Fin 1) r hr0,
    blk3_apply V c t, blk4_apply V c t, blk5_apply V c t]

/-- An index of the output array is in point `t`'s block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v48).slice (win2_6.rect t)).set ↔ _
  rw [View.set_slice_whole, Rect.mem_set_unit]
  exact Iff.rfl

/-- The twenty row blocks tile the array: row `n` is in the block of point `n / 5000`. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hlt : (i 0).val / 5000 < cfg2.N := by
    show (i 0).val / 5000 < grid2.N
    rw [N_2]
    omega
  obtain ⟨t, ht⟩ : ∃ t : Fin cfg2.N, t.val = (i 0).val / 5000 := ⟨⟨_, hlt⟩, rfl⟩
  refine ⟨t, flush2_6 t, ?_⟩
  rw [mem_blk]
  obtain ⟨e0, e1, e2, e3, e4, e5, e6, e7, e8, e9, e10, e11, e12, e13⟩ := idx_facts t
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

/-- THE OUTPUT ARRAY after the region: `G`, for any contents `V` the region is entered with. -/
theorem final (c : Dev nD) : (dat2 V c).arrAt 6 cfg2.N = G V c :=
  (dat2 V c).arrAt_eq_of_cover 6 (G V c) (fun t _ => flushed_eq V c t) (cover)

end Cert.KernelIdeal.Blocks2

end
-- ==== Proof.NetDefs.lean ====
import proofs.«172100_j7851200217530_2_alg».proof.Proof.ReferenceRead
import proofs.«172100_j7851200217530_2_alg».proof.Proof.Spec

/-!
# The whole network as one function of the sixteen arguments

Three layers, each fed by the previous one through the same neighbour sum.  The neighbour sum of node features `h`
is carried as ONE opaque function of `h` and of the two edge-endpoint vectors (a row gather at the source endpoints
followed by an accumulating scatter at the destination endpoints): both programs apply exactly this chain, so it is
never opened.  A node's neighbour row is its neighbour sum times the reciprocal of its in-degree clamped below at one,
`1 / max(deg, 1)`, where the in-degree is the accumulating scatter of ones at the destination endpoints.
-/

noncomputable section

namespace Cert.GraphLayer.Net

open Idealize.ShloMosaic Idealize.ShloMosaic.ValueIdx Cert.ReferenceIdeal Cert.ReferenceIdeal.Read Cert.GraphLayer

/-- The reciprocal-degree column from a degree vector: `1 / max(deg, 1)`, viewed as `[100000, 1]`. -/
def invDeg (deg : (⟨1, ![100000]⟩ : Shape).Idx → EReal)
    (hb : (⟨0, ![]⟩ : Shape).BroadcastsInDim ⟨1, ![100000]⟩ (![] : Fin 0 → Fin (⟨1, ![100000]⟩ : Shape).rank))
    (hc : (⟨1, ![100000]⟩ : Shape).ShapeCasts ⟨2, ![100000, 1]⟩) : (⟨2, ![100000, 1]⟩ : Shape).Idx → EReal :=
  shapeCast ⟨2, ![100000, 1]⟩
    (Host.divf (F := Ideal) (broadcastInDim ⟨1, ![100000]⟩ ![] hb (constant (F := Ideal) ⟨0, ![]⟩ .f32 0x3F800000#32))
      (maximumf deg (broadcastInDim ⟨1, ![100000]⟩ ![] hb (constant (F := Ideal) ⟨0, ![]⟩ .f32 0x3F800000#32)))) hc

/-- Every row of `A` scaled by its node's entry of the column `s`. -/
def scale {d : ℕ} (A : (⟨2, ![100000, d]⟩ : Shape).Idx → EReal) (s : (⟨2, ![100000, 1]⟩ : Shape).Idx → EReal) :
    (⟨2, ![100000, d]⟩ : Shape).Idx → EReal :=
  fun i => A i * s (ix2 (i 0) (0 : Fin 1))

/-- The neighbour sum of 64-channel node features: gather the rows at the source endpoints, scatter-add them at the
    destination endpoints (never opened). -/
def agg64 (h : FVec Ideal S100000x64 .f32) (x1 x2 : IVec S1000000 32) : FVec Ideal S100000x64 .f32 :=
  Host.scatterAdd (F := Ideal) scatter_S100000x64_S1000000x1_S1000000x64_1_0_0_1 (val_main_v7 (F := Ideal)) (val_main_v8 (F := Ideal) x2)
    (Host.gather gather_S100000x64_S1000000x1_S1000000x64_1_0_n_n_0_1_164 h (val_main_v5 (F := Ideal) x1))

/-- The neighbour sum of 128-channel node features (never opened). -/
def agg128 (h : FVec Ideal S100000x128 .f32) (x1 x2 : IVec S1000000 32) : FVec Ideal S100000x128 .f32 :=
  Host.scatterAdd (F := Ideal) scatter_S100000x128_S1000000x1_S1000000x128_1_0_0_1 (val_main_v58 (F := Ideal)) (val_main_v59 (F := Ideal) x2)
    (Host.gather gather_S100000x128_S1000000x1_S1000000x128_1_0_n_n_0_1_1128 h (val_main_v56 (F := Ideal) x1))

section
variable (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 : (⟨S128, .f32⟩ : BufTy).Contents (Elt Ideal))
  (x6 x7 : (⟨S128x128, .f32⟩ : BufTy).Contents (Elt Ideal)) (x8 : (⟨S128, .f32⟩ : BufTy).Contents (Elt Ideal)) (x9 x10 : (⟨S128x128, .f32⟩ : BufTy).Contents (Elt Ideal)) (x11 x12 x13 x14 x15 : (⟨S128, .f32⟩ : BufTy).Contents (Elt Ideal))
  (s : (⟨2, ![100000, 1]⟩ : Shape).Idx → EReal)

/-- The first layer's output. -/
def h1 : (⟨2, ![100000, 128]⟩ : Shape).Idx → EReal :=
  layerN (N := 100000) (d := 64) x0 (scale (agg64 x0 x1 x2) s) x3 x4 x5 x12 x13
/-- The second layer's output. -/
def h2 : (⟨2, ![100000, 128]⟩ : Shape).Idx → EReal :=
  layerN (N := 100000) (d := 128) (h1 x0 x1 x2 x3 x4 x5 x12 x13 s) (scale (agg128 (h1 x0 x1 x2 x3 x4 x5 x12 x13 s) x1 x2) s) x6 x7 x8 x14 x15
/-- The network's output: the third layer, without normalisation. -/
def h3 : (⟨2, ![100000, 128]⟩ : Shape).Idx → EReal :=
  layerP (N := 100000) (d := 128) (h2 x0 x1 x2 x3 x4 x5 x6 x7 x8 x12 x13 x14 x15 s)
    (scale (agg128 (h2 x0 x1 x2 x3 x4 x5 x6 x7 x8 x12 x13 x14 x15 s) x1 x2) s) x9 x10 x11
end

end Cert.GraphLayer.Net

end
-- ==== Proof.Chain.lean ====
import proofs.«172100_j7851200217530_2_alg».proof.Proof.KernelIdealFrame
import proofs.«172100_j7851200217530_2_alg».proof.Proof.Blocks0
import proofs.«172100_j7851200217530_2_alg».proof.Proof.Blocks1
import proofs.«172100_j7851200217530_2_alg».proof.Proof.Blocks2
import proofs.«172100_j7851200217530_2_alg».proof.Proof.NetDefs
import Idealize.ShloMosaic.Lib.StableHlo.Run
import Idealize.ShloMosaic.Lib.Pipeline.Value
import Idealize.ShloMosaic.Lib.ValueIdx

/-!
# The idealized kernel's result array as the network function of its arguments

The program is three regions among three stretches of host operations.  Each stretch computes, from buffers nobody
overwrites, the operands of the region that follows: the reciprocal-degree column (once), the neighbour sum of the
current node features, and the parameter rows viewed as `[1, 128]` arrays.  Each region leaves in its output array
the layer function of the arrays it was entered with.  Reading the six boundaries in order, the result array is the
third layer of the second layer of the first layer of the node features.
-/

set_option maxRecDepth 16384

noncomputable section

namespace Cert.KernelIdeal.Chain

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.GraphLayer Cert.GraphLayer.Net

/-- A vector `[128]` viewed as a row `[1, 128]` and read back along the row is the vector. -/
theorem row_cast (x : (⟨1, ![128]⟩ : Shape).Idx → EReal) (h : (⟨1, ![128]⟩ : Shape).ShapeCasts ⟨2, ![1, 128]⟩) :
    (fun i : (⟨1, ![128]⟩ : Shape).Idx => shapeCast ⟨2, ![1, 128]⟩ x h (ix2 (0 : Fin 1) (i 0))) = x := by
  funext i
  obtain ⟨q, rfl⟩ : ∃ q : Fin 128, i = ix1 q := ⟨i 0, eq_ix1 i⟩
  exact shapeCast_apply x h (ix2 (0 : Fin 1) q) (ix1 q) (by
    rw [Shape.rowMajor_val_two, Shape.rowMajor_val_one]
    show q.val = (0 : Fin 1).val * 128 + q.val
    simp)

variable (m : (ℓ : Loc nD τ sig) → Buf (Elt Ideal) ℓ) (ρ : Dev nD → PrngReg) (c : Dev nD)

/-- The reciprocal-degree column of the launch memory's destination endpoints. -/
abbrev sCol : (⟨2, ![100000, 1]⟩ : Shape).Idx → EReal :=
  invDeg (Cert.ReferenceIdeal.Read.val_main_v13 (F := Ideal) (m ((c : Thread nD τ).loc main_arg2))) Cert.KernelIdeal.Gen.bcast_S_S100000 Cert.KernelIdeal.Gen.shapeCasts_S100000_S100000x1

/-! ## Region 0's entry: the first stretch read at the buffers the region reads -/

theorem e1_arg0 : W1 m ρ c (Proc.devRef .tc main_arg0) = (m ((c : Thread nD τ).loc main_arg0)) := by
  show StableHlo.after hostOps0 _ (Proc.devRef .tc main_arg0) = _
  after_results <;> rfl

theorem e1_arg3 : W1 m ρ c (Proc.devRef .tc main_arg3) = (m ((c : Thread nD τ).loc main_arg3)) := by
  show StableHlo.after hostOps0 _ (Proc.devRef .tc main_arg3) = _
  after_results <;> rfl

theorem e1_arg4 : W1 m ρ c (Proc.devRef .tc main_arg4) = (m ((c : Thread nD τ).loc main_arg4)) := by
  show StableHlo.after hostOps0 _ (Proc.devRef .tc main_arg4) = _
  after_results <;> rfl

set_option maxHeartbeats 4000000 in
theorem e1_v18 : W1 m ρ c (Proc.devRef .tc main_v18) = agg64 (m ((c : Thread nD τ).loc main_arg0)) (m ((c : Thread nD τ).loc main_arg1)) (m ((c : Thread nD τ).loc main_arg2)) := by
  show StableHlo.after hostOps0 _ (Proc.devRef .tc main_v18) = _
  after_results <;> rfl

theorem e1_v8 : W1 m ρ c (Proc.devRef .tc main_v8) = sCol m c := by
  show StableHlo.after hostOps0 _ (Proc.devRef .tc main_v8) = _
  after_results <;> rfl

theorem e1_v19 : W1 m ρ c (Proc.devRef .tc main_v19) = shapeCast S1x128 (m ((c : Thread nD τ).loc main_arg5)) Cert.KernelIdeal.Gen.shapeCasts_S128_S1x128 := by
  show StableHlo.after hostOps0 _ (Proc.devRef .tc main_v19) = _
  after_results <;> rfl

theorem e1_v20 : W1 m ρ c (Proc.devRef .tc main_v20) = shapeCast S1x128 (m ((c : Thread nD τ).loc main_arg12)) Cert.KernelIdeal.Gen.shapeCasts_S128_S1x128 := by
  show StableHlo.after hostOps0 _ (Proc.devRef .tc main_v20) = _
  after_results <;> rfl

theorem e1_v21 : W1 m ρ c (Proc.devRef .tc main_v21) = shapeCast S1x128 (m ((c : Thread nD τ).loc main_arg13)) Cert.KernelIdeal.Gen.shapeCasts_S128_S1x128 := by
  show StableHlo.after hostOps0 _ (Proc.devRef .tc main_v21) = _
  after_results <;> rfl

/-- Buffers the first stretch leaves alone and region 0 does not own: still the launch memory after region 0. -/
theorem e2_arg1 : W2 m ρ c (Proc.devRef .tc main_arg1) = (m ((c : Thread nD τ).loc main_arg1)) := by
  rw [W2_of_ne m ρ c main_arg1 (by decide)]
  show StableHlo.after hostOps0 _ (Proc.devRef .tc main_arg1) = _
  after_results <;> rfl

theorem e2_arg2 : W2 m ρ c (Proc.devRef .tc main_arg2) = (m ((c : Thread nD τ).loc main_arg2)) := by
  rw [W2_of_ne m ρ c main_arg2 (by decide)]
  show StableHlo.after hostOps0 _ (Proc.devRef .tc main_arg2) = _
  after_results <;> rfl

theorem e2_arg6 : W2 m ρ c (Proc.devRef .tc main_arg6) = (m ((c : Thread nD τ).loc main_arg6)) := by
  rw [W2_of_ne m ρ c main_arg6 (by decide)]
  show StableHlo.after hostOps0 _ (Proc.devRef .tc main_arg6) = _
  after_results <;> rfl

theorem e2_arg7 : W2 m ρ c (Proc.devRef .tc main_arg7) = (m ((c : Thread nD τ).loc main_arg7)) := by
  rw [W2_of_ne m ρ c main_arg7 (by decide)]
  show StableHlo.after hostOps0 _ (Proc.devRef .tc main_arg7) = _
  after_results <;> rfl

theorem e2_arg8 : W2 m ρ c (Proc.devRef .tc main_arg8) = (m ((c : Thread nD τ).loc main_arg8)) := by
  rw [W2_of_ne m ρ c main_arg8 (by decide)]
  show StableHlo.after hostOps0 _ (Proc.devRef .tc main_arg8) = _
  after_results <;> rfl

theorem e2_arg9 : W2 m ρ c (Proc.devRef .tc main_arg9) = (m ((c : Thread nD τ).loc main_arg9)) := by
  rw [W2_of_ne m ρ c main_arg9 (by decide)]
  show StableHlo.after hostOps0 _ (Proc.devRef .tc main_arg9) = _
  after_results <;> rfl

theorem e2_arg10 : W2 m ρ c (Proc.devRef .tc main_arg10) = (m ((c : Thread nD τ).loc main_arg10)) := by
  rw [W2_of_ne m ρ c main_arg10 (by decide)]
  show StableHlo.after hostOps0 _ (Proc.devRef .tc main_arg10) = _
  after_results <;> rfl

theorem e2_arg11 : W2 m ρ c (Proc.devRef .tc main_arg11) = (m ((c : Thread nD τ).loc main_arg11)) := by
  rw [W2_of_ne m ρ c main_arg11 (by decide)]
  show StableHlo.after hostOps0 _ (Proc.devRef .tc main_arg11) = _
  after_results <;> rfl

theorem e2_arg14 : W2 m ρ c (Proc.devRef .tc main_arg14) = (m ((c : Thread nD τ).loc main_arg14)) := by
  rw [W2_of_ne m ρ c main_arg14 (by decide)]
  show StableHlo.after hostOps0 _ (Proc.devRef .tc main_arg14) = _
  after_results <;> rfl

theorem e2_arg15 : W2 m ρ c (Proc.devRef .tc main_arg15) = (m ((c : Thread nD τ).loc main_arg15)) := by
  rw [W2_of_ne m ρ c main_arg15 (by decide)]
  show StableHlo.after hostOps0 _ (Proc.devRef .tc main_arg15) = _
  after_results <;> rfl

/-- The reciprocal-degree column is an input of region 0: it leaves the region as it entered. -/
theorem e2_v8 : W2 m ρ c (Proc.devRef .tc main_v8) = sCol m c :=
  (W2_arr m ρ c 2).trans ((((dat0 (V1 m ρ) c).arrAt_in 2 rfl _).trans (A_eq0 (V1 m ρ) c 2)).trans (e1_v8 m ρ c))

/-- REGION 0's output: the first layer. -/
theorem e2_v22 : W2 m ρ c (Proc.devRef .tc main_v22)
    = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (sCol m c) := by
  refine (W2_arr m ρ c 8).trans ((Blocks0.final (V1 m ρ) c).trans ?_)
  unfold Blocks0.G Blocks0.nrows Blocks0.scaleRows h1 scale
  rw [show V1 m ρ c main_arg0 = _ from e1_arg0 m ρ c, show V1 m ρ c main_v18 = _ from e1_v18 m ρ c, show V1 m ρ c main_v8 = _ from e1_v8 m ρ c,
    show V1 m ρ c main_arg3 = _ from e1_arg3 m ρ c, show V1 m ρ c main_arg4 = _ from e1_arg4 m ρ c,
    show V1 m ρ c main_v19 = _ from e1_v19 m ρ c, show V1 m ρ c main_v20 = _ from e1_v20 m ρ c, show V1 m ρ c main_v21 = _ from e1_v21 m ρ c,
    row_cast, row_cast, row_cast]

/-! ## Region 1's entry -/

theorem e3_v22 : W3 m ρ c (Proc.devRef .tc main_v22) = W2 m ρ c (Proc.devRef .tc main_v22) := by
  show StableHlo.after hostOps1 _ (Proc.devRef .tc main_v22) = _
  after_results

theorem e3_v8 : W3 m ρ c (Proc.devRef .tc main_v8) = W2 m ρ c (Proc.devRef .tc main_v8) := by
  show StableHlo.after hostOps1 _ (Proc.devRef .tc main_v8) = _
  after_results

theorem e3_arg6 : W3 m ρ c (Proc.devRef .tc main_arg6) = W2 m ρ c (Proc.devRef .tc main_arg6) := by
  show StableHlo.after hostOps1 _ (Proc.devRef .tc main_arg6) = _
  after_results

theorem e3_arg7 : W3 m ρ c (Proc.devRef .tc main_arg7) = W2 m ρ c (Proc.devRef .tc main_arg7) := by
  show StableHlo.after hostOps1 _ (Proc.devRef .tc main_arg7) = _
  after_results

theorem e3_v32 : W3 m ρ c (Proc.devRef .tc main_v32) = agg128 (W2 m ρ c (Proc.devRef .tc main_v22)) (W2 m ρ c (Proc.devRef .tc main_arg1)) (W2 m ρ c (Proc.devRef .tc main_arg2)) := by
  show StableHlo.after hostOps1 _ (Proc.devRef .tc main_v32) = _
  after_results <;> rfl

theorem e3_v33 : W3 m ρ c (Proc.devRef .tc main_v33) = shapeCast S1x128 (W2 m ρ c (Proc.devRef .tc main_arg8)) Cert.KernelIdeal.Gen.shapeCasts_S128_S1x128 := by
  show StableHlo.after hostOps1 _ (Proc.devRef .tc main_v33) = _
  after_results <;> rfl

theorem e3_v34 : W3 m ρ c (Proc.devRef .tc main_v34) = shapeCast S1x128 (W2 m ρ c (Proc.devRef .tc main_arg14)) Cert.KernelIdeal.Gen.shapeCasts_S128_S1x128 := by
  show StableHlo.after hostOps1 _ (Proc.devRef .tc main_v34) = _
  after_results <;> rfl

theorem e3_v35 : W3 m ρ c (Proc.devRef .tc main_v35) = shapeCast S1x128 (W2 m ρ c (Proc.devRef .tc main_arg15)) Cert.KernelIdeal.Gen.shapeCasts_S128_S1x128 := by
  show StableHlo.after hostOps1 _ (Proc.devRef .tc main_v35) = _
  after_results <;> rfl

/-- Buffers neither the second stretch nor region 1 writes: after region 1 what they held after region 0. -/
theorem e4_arg1 : W4 m ρ c (Proc.devRef .tc main_arg1) = (m ((c : Thread nD τ).loc main_arg1)) := by
  rw [W4_of_ne m ρ c main_arg1 (by decide)]
  show StableHlo.after hostOps1 _ (Proc.devRef .tc main_arg1) = _
  after_results <;> exact e2_arg1 m ρ c

theorem e4_arg2 : W4 m ρ c (Proc.devRef .tc main_arg2) = (m ((c : Thread nD τ).loc main_arg2)) := by
  rw [W4_of_ne m ρ c main_arg2 (by decide)]
  show StableHlo.after hostOps1 _ (Proc.devRef .tc main_arg2) = _
  after_results <;> exact e2_arg2 m ρ c

theorem e4_arg9 : W4 m ρ c (Proc.devRef .tc main_arg9) = (m ((c : Thread nD τ).loc main_arg9)) := by
  rw [W4_of_ne m ρ c main_arg9 (by decide)]
  show StableHlo.after hostOps1 _ (Proc.devRef .tc main_arg9) = _
  after_results <;> exact e2_arg9 m ρ c

theorem e4_arg10 : W4 m ρ c (Proc.devRef .tc main_arg10) = (m ((c : Thread nD τ).loc main_arg10)) := by
  rw [W4_of_ne m ρ c main_arg10 (by decide)]
  show StableHlo.after hostOps1 _ (Proc.devRef .tc main_arg10) = _
  after_results <;> exact e2_arg10 m ρ c

theorem e4_arg11 : W4 m ρ c (Proc.devRef .tc main_arg11) = (m ((c : Thread nD τ).loc main_arg11)) := by
  rw [W4_of_ne m ρ c main_arg11 (by decide)]
  show StableHlo.after hostOps1 _ (Proc.devRef .tc main_arg11) = _
  after_results <;> exact e2_arg11 m ρ c

theorem e4_v8 : W4 m ρ c (Proc.devRef .tc main_v8) = sCol m c :=
  (W4_arr m ρ c 2).trans ((((dat1 (V3 m ρ) c).arrAt_in 2 rfl _).trans (A_eq1 (V3 m ρ) c 2)).trans ((e3_v8 m ρ c).trans (e2_v8 m ρ c)))

/-- REGION 1's output: the second layer. -/
theorem e4_v36 : W4 m ρ c (Proc.devRef .tc main_v36)
    = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (sCol m c) := by
  refine (W4_arr m ρ c 8).trans ((Blocks1.final (V3 m ρ) c).trans ?_)
  unfold Blocks1.G Blocks1.nrows Blocks1.scaleRows h2 scale
  rw [show V3 m ρ c main_v22 = _ from (e3_v22 m ρ c).trans (e2_v22 m ρ c),
    show V3 m ρ c main_v32 = _ from (e3_v32 m ρ c),
    show V3 m ρ c main_v8 = _ from (e3_v8 m ρ c).trans (e2_v8 m ρ c),
    show V3 m ρ c main_arg6 = _ from (e3_arg6 m ρ c).trans (e2_arg6 m ρ c), show V3 m ρ c main_arg7 = _ from (e3_arg7 m ρ c).trans (e2_arg7 m ρ c),
    show V3 m ρ c main_v33 = _ from e3_v33 m ρ c, show V3 m ρ c main_v34 = _ from e3_v34 m ρ c, show V3 m ρ c main_v35 = _ from e3_v35 m ρ c,
    e2_v22 m ρ c, e2_arg1 m ρ c, e2_arg2 m ρ c, e2_arg8 m ρ c, e2_arg14 m ρ c, e2_arg15 m ρ c,
    row_cast, row_cast, row_cast]

/-! ## Region 2's entry -/

theorem e5_v36 : W5 m ρ c (Proc.devRef .tc main_v36) = W4 m ρ c (Proc.devRef .tc main_v36) := by
  show StableHlo.after hostOps2 _ (Proc.devRef .tc main_v36) = _
  after_results

theorem e5_v8 : W5 m ρ c (Proc.devRef .tc main_v8) = W4 m ρ c (Proc.devRef .tc main_v8) := by
  show StableHlo.after hostOps2 _ (Proc.devRef .tc main_v8) = _
  after_results

theorem e5_arg9 : W5 m ρ c (Proc.devRef .tc main_arg9) = W4 m ρ c (Proc.devRef .tc main_arg9) := by
  show StableHlo.after hostOps2 _ (Proc.devRef .tc main_arg9) = _
  after_results

theorem e5_arg10 : W5 m ρ c (Proc.devRef .tc main_arg10) = W4 m ρ c (Proc.devRef .tc main_arg10) := by
  show StableHlo.after hostOps2 _ (Proc.devRef .tc main_arg10) = _
  after_results

theorem e5_v46 : W5 m ρ c (Proc.devRef .tc main_v46) = agg128 (W4 m ρ c (Proc.devRef .tc main_v36)) (W4 m ρ c (Proc.devRef .tc main_arg1)) (W4 m ρ c (Proc.devRef .tc main_arg2)) := by
  show StableHlo.after hostOps2 _ (Proc.devRef .tc main_v46) = _
  after_results <;> rfl

theorem e5_v47 : W5 m ρ c (Proc.devRef .tc main_v47) = shapeCast S1x128 (W4 m ρ c (Proc.devRef .tc main_arg11)) Cert.KernelIdeal.Gen.shapeCasts_S128_S1x128 := by
  show StableHlo.after hostOps2 _ (Proc.devRef .tc main_v47) = _
  after_results <;> rfl

/-- THE RESULT ARRAY after the last region: the network function of the launch memory's arguments. -/
theorem result_eq : W6 m ρ c (Proc.devRef .tc main_v48)
    = h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (sCol m c) := by
  refine (W6_arr m ρ c 6).trans ((Blocks2.final (V5 m ρ) c).trans ?_)
  unfold Blocks2.G Blocks2.nrows Blocks2.scaleRows h3 scale
  rw [show V5 m ρ c main_v36 = _ from (e5_v36 m ρ c).trans (e4_v36 m ρ c),
    show V5 m ρ c main_v46 = _ from (e5_v46 m ρ c),
    show V5 m ρ c main_v8 = _ from (e5_v8 m ρ c).trans (e4_v8 m ρ c),
    show V5 m ρ c main_arg9 = _ from (e5_arg9 m ρ c).trans (e4_arg9 m ρ c), show V5 m ρ c main_arg10 = _ from (e5_arg10 m ρ c).trans (e4_arg10 m ρ c),
    show V5 m ρ c main_v47 = _ from e5_v47 m ρ c,
    e4_v36 m ρ c, e4_arg1 m ρ c, e4_arg2 m ρ c, e4_arg11 m ρ c,
    row_cast]

end Cert.KernelIdeal.Chain

end
-- ==== Proof.RefLayer0.lean ====
import proofs.«172100_j7851200217530_2_alg».proof.Proof.ReferenceRead
import proofs.«172100_j7851200217530_2_alg».proof.Proof.Spec

/-!
# The reference's first layer is the shared layer function of its operands

The reference computes the layer by whole-array operations: two contractions over the 64 input
channels, the bias row broadcast over the nodes, a clamp at zero, then the row mean and the row
variance (each a row sum divided by 128; the variance sums the squared centred entries), the
reciprocal root of the variance plus the offset broadcast back over the channels, and the per-channel
scale and shift.  Read at the entry `(p, q)`, every broadcast selects the row `p` or the channel `q`,
so each stage is the corresponding expression of the specification.  The two row sums start from the
zero word, which is the number zero; the clamp's zero word and the other two constants are the same
words on both sides and are never evaluated.
-/

noncomputable section

open scoped BigOperators

namespace Cert.ReferenceIdeal.RefValue

open Idealize.ShloMosaic Idealize.ShloMosaic.ValueIdx Cert.ReferenceIdeal Cert.ReferenceIdeal.Read Cert.GraphLayer

namespace L0

/-- A row sum that starts from the zero word is the sum: the zero word is the number zero. -/
theorem zero_word_add (x : EReal) : Ideal.ofBits .f32 0x00000000#32 + x = x := by
  rw [Ideal.ofBits_zero_f32, zero_add]

/-! ## The composed index maps at explicit coordinates

Each contraction reads row `p` of its left operand and column `q` of its right operand; a row vector
broadcast over the nodes is read at the channel `q`; a per-node column broadcast over the channels is read
at the node `p`; a row sum runs over the channels of row `p`. -/

section idx
variable (p : Fin 100000) (q : Fin 128) (z : Fin 1)

theorem lidxA (k : Fin 64) : lidx_main_v20 (ix2 p q) k = ix2 p k :=
  funext fun a => Fin.ext (by match a with | ⟨0, _⟩ => rfl | ⟨1, _⟩ => rfl)
theorem ridxA (k : Fin 64) : ridx_main_v20 (ix2 p q) k = ix2 k q :=
  funext fun a => Fin.ext (by match a with | ⟨0, _⟩ => rfl | ⟨1, _⟩ => rfl)
theorem lidxB (k : Fin 64) : lidx_main_v21 (ix2 p q) k = ix2 p k :=
  funext fun a => Fin.ext (by match a with | ⟨0, _⟩ => rfl | ⟨1, _⟩ => rfl)
theorem ridxB (k : Fin 64) : ridx_main_v21 (ix2 p q) k = ix2 k q :=
  funext fun a => Fin.ext (by match a with | ⟨0, _⟩ => rfl | ⟨1, _⟩ => rfl)
theorem idxE : idx_main_v24 (ix2 p q) = ix2 (⟨0, Nat.one_pos⟩ : Fin 1) q :=
  funext fun a => Fin.ext (by match a with | ⟨0, _⟩ => rfl | ⟨1, _⟩ => rfl)
theorem idxD : idx_main_v23 (ix2 z q) = ix1 q :=
  funext fun a => Fin.ext (by match a with | ⟨0, _⟩ => rfl)
theorem idxS1 (k : Fin 128) : idx_main_v27 (ix1 p) k = ix2 p k :=
  funext fun a => Fin.ext (by match a with | ⟨0, _⟩ => rfl | ⟨1, _⟩ => rfl)
theorem idxS1b : idx_main_v28 (ix2 p z) = ix1 p :=
  funext fun a => Fin.ext (by match a with | ⟨0, _⟩ => rfl)
theorem idxMb : idx_main_v31 (ix2 p q) = ix2 p (⟨0, Nat.one_pos⟩ : Fin 1) :=
  funext fun a => Fin.ext (by match a with | ⟨0, _⟩ => rfl | ⟨1, _⟩ => rfl)
theorem idxS2 (k : Fin 128) : idx_main_v34 (ix1 p) k = ix2 p k :=
  funext fun a => Fin.ext (by match a with | ⟨0, _⟩ => rfl | ⟨1, _⟩ => rfl)
theorem idxS2b : idx_main_v35 (ix2 p z) = ix1 p :=
  funext fun a => Fin.ext (by match a with | ⟨0, _⟩ => rfl)
theorem idxMb2 : idx_main_v38 (ix2 p q) = ix2 p (⟨0, Nat.one_pos⟩ : Fin 1) :=
  funext fun a => Fin.ext (by match a with | ⟨0, _⟩ => rfl | ⟨1, _⟩ => rfl)
theorem idxRsb : idx_main_v43 (ix2 p q) = ix2 p (⟨0, Nat.one_pos⟩ : Fin 1) :=
  funext fun a => Fin.ext (by match a with | ⟨0, _⟩ => rfl | ⟨1, _⟩ => rfl)
theorem idxG2 : idx_main_v46 (ix2 p q) = ix2 (⟨0, Nat.one_pos⟩ : Fin 1) q :=
  funext fun a => Fin.ext (by match a with | ⟨0, _⟩ => rfl | ⟨1, _⟩ => rfl)
theorem idxG1 : idx_main_v45 (ix2 z q) = ix1 q :=
  funext fun a => Fin.ext (by match a with | ⟨0, _⟩ => rfl)
theorem idxB2 : idx_main_v49 (ix2 p q) = ix2 (⟨0, Nat.one_pos⟩ : Fin 1) q :=
  funext fun a => Fin.ext (by match a with | ⟨0, _⟩ => rfl | ⟨1, _⟩ => rfl)
theorem idxB1 : idx_main_v48 (ix2 z q) = ix1 q :=
  funext fun a => Fin.ext (by match a with | ⟨0, _⟩ => rfl)

end idx

/-! ## The stages at the entry `(p, q)` -/

/-- The clamped stage at `(p, q)` is the activated entry: the two contractions, the bias at `q`, the clamp at the zero word. -/
theorem act_at (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 : (⟨S128, .f32⟩ : BufTy).Contents (Elt Ideal)) (p : Fin 100000) (q : Fin 128) :
    val_main_v26 (F := Ideal) x0 x1 x2 x3 x4 x5 (ix2 p q) = actAt x0 (val_main_v19 (F := Ideal) x0 x1 x2) x3 x4 x5 p q := by
  simp only [val_main_v26_apply, val_main_v25_apply, val_main_v22_apply, val_main_v20_apply, val_main_v21_apply, val_main_v24_apply, val_main_v23_apply, val_main_call1_v0_apply, val_main_call1_cst_apply,
    lidxA, ridxA, lidxB, ridxB, idxE, idxD, Ideal.addf_def, Ideal.maximumf_def, Ideal.ofBits_def]
  generalize val_main_v19 (F := Ideal) x0 x1 x2 = hn
  rfl

/-- The mean stage at row `p` is the mean of the clamped row. -/
theorem mean_at (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 : (⟨S128, .f32⟩ : BufTy).Contents (Elt Ideal)) (p : Fin 100000) (z : Fin 1) :
    val_main_v30 (F := Ideal) x0 x1 x2 x3 x4 x5 (ix2 p z) = mean (fun j => val_main_v26 (F := Ideal) x0 x1 x2 x3 x4 x5 (ix2 p j)) := by
  simp only [val_main_v30_apply, val_main_v28_apply, val_main_v27_apply, val_main_v29_apply, val_main_cst_6_apply, val_main_cst_5_apply,
    idxS1b, idxS1, Ideal.hostDivf_def, Ideal.ofBits_def, zero_word_add]
  generalize val_main_v26 (F := Ideal) x0 x1 x2 x3 x4 x5 = o
  rfl

/-- The variance stage at row `p` is the variance of the clamped row. -/
theorem var_at (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 : (⟨S128, .f32⟩ : BufTy).Contents (Elt Ideal)) (p : Fin 100000) (z : Fin 1) :
    val_main_v37 (F := Ideal) x0 x1 x2 x3 x4 x5 (ix2 p z) = var (fun j => val_main_v26 (F := Ideal) x0 x1 x2 x3 x4 x5 (ix2 p j)) := by
  simp only [val_main_v37_apply, val_main_v35_apply, val_main_v34_apply, val_main_v36_apply, val_main_cst_8_apply, val_main_cst_7_apply, val_main_v33_apply, val_main_v32_apply, val_main_v31_apply,
    idxS2b, idxS2, idxMb, mean_at, Ideal.hostDivf_def, Ideal.mulf_def, Ideal.subf_def, Ideal.ofBits_def, zero_word_add]
  generalize val_main_v26 (F := Ideal) x0 x1 x2 x3 x4 x5 = o
  rfl

/-- The layer's last stage at `(p, q)` is the normalised entry of the clamped row. -/
theorem norm_at (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 x12 x13 : (⟨S128, .f32⟩ : BufTy).Contents (Elt Ideal)) (p : Fin 100000) (q : Fin 128) :
    val_main_v50 (F := Ideal) x0 x1 x2 x3 x4 x5 x12 x13 (ix2 p q)
      = normAt (fun j => val_main_v26 (F := Ideal) x0 x1 x2 x3 x4 x5 (ix2 p j)) (fun j => x12 (ix1 j)) (fun j => x13 (ix1 j)) q := by
  simp only [val_main_v50_apply, val_main_v47_apply, val_main_v49_apply, val_main_v48_apply, val_main_v46_apply, val_main_v45_apply, val_main_v44_apply, val_main_v43_apply, val_main_v42_apply, val_main_v41_apply, val_main_v40_apply, val_main_cst_9_apply, val_main_v39_apply, val_main_v38_apply,
    idxB2, idxB1, idxG2, idxG1, idxRsb, idxMb2, mean_at, var_at,
    Ideal.addf_def, Ideal.mulf_def, Ideal.subf_def, Ideal.hostUnary_rsqrt_def, Ideal.ofBits_def]
  generalize val_main_v26 (F := Ideal) x0 x1 x2 x3 x4 x5 = o
  rfl

end L0

/-- The reference's layer is the normalising layer function of its two operand arrays and its parameters. -/
theorem ref_layer0 (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 x12 x13 : (⟨S128, .f32⟩ : BufTy).Contents (Elt Ideal)) :
    val_main_v50 (F := Ideal) x0 x1 x2 x3 x4 x5 x12 x13
      = layerN x0 (val_main_v19 (F := Ideal) x0 x1 x2) x3 x4 x5 x12 x13 := by
  funext i
  obtain ⟨p, q, rfl⟩ : ∃ (p : Fin 100000) (q : Fin 128), i = ix2 p q := ⟨i 0, i 1, eq_ix2 i⟩
  rw [L0.norm_at, layerN_apply]
  exact congrArg (fun o => normAt o (fun j => x12 (ix1 j)) (fun j => x13 (ix1 j)) q)
    (funext fun j => L0.act_at x0 x1 x2 x3 x4 x5 p j)

end Cert.ReferenceIdeal.RefValue

end
-- ==== Proof.RefLayer1.lean ====
import proofs.«172100_j7851200217530_2_alg».proof.Proof.ReferenceRead
import proofs.«172100_j7851200217530_2_alg».proof.Proof.Spec

/-!
# The reference's second layer is the shared layer function of its operands

The same whole-array operations as in the first layer, now contracting over the 128 channels of the
first layer's output and of its neighbour rows: two contractions, the bias row, a clamp at zero, the row
mean and the row variance (each a row sum divided by 128), the reciprocal root of the variance plus the
offset, and the per-channel scale and shift.  Read at the entry `(p, q)`, every broadcast selects the
row `p` or the channel `q`, so each stage is the corresponding expression of the specification.  The
two operand arrays are earlier stages of the program and enter only as arrays: nothing of how they were
computed is used.  The two row sums start from the zero word, which is the number zero; the clamp's zero
word and the other two constants are the same words on both sides and are never evaluated.
-/

noncomputable section

open scoped BigOperators

namespace Cert.ReferenceIdeal.RefValue

open Idealize.ShloMosaic Idealize.ShloMosaic.ValueIdx Cert.ReferenceIdeal Cert.ReferenceIdeal.Read Cert.GraphLayer

namespace L1

/-- A row sum that starts from the zero word is the sum: the zero word is the number zero. -/
theorem zero_word_add (x : EReal) : Ideal.ofBits .f32 0x00000000#32 + x = x := by
  rw [Ideal.ofBits_zero_f32, zero_add]

/-! ## The composed index maps at explicit coordinates

Each contraction reads row `p` of its left operand and column `q` of its right operand; a row vector
broadcast over the nodes is read at the channel `q`; a per-node column broadcast over the channels is read
at the node `p`; a row sum runs over the channels of row `p`. -/

section idx
variable (p : Fin 100000) (q : Fin 128) (z : Fin 1)

theorem lidxA (k : Fin 128) : lidx_main_v71 (ix2 p q) k = ix2 p k :=
  funext fun a => Fin.ext (by match a with | ⟨0, _⟩ => rfl | ⟨1, _⟩ => rfl)
theorem ridxA (k : Fin 128) : ridx_main_v71 (ix2 p q) k = ix2 k q :=
  funext fun a => Fin.ext (by match a with | ⟨0, _⟩ => rfl | ⟨1, _⟩ => rfl)
theorem lidxB (k : Fin 128) : lidx_main_v72 (ix2 p q) k = ix2 p k :=
  funext fun a => Fin.ext (by match a with | ⟨0, _⟩ => rfl | ⟨1, _⟩ => rfl)
theorem ridxB (k : Fin 128) : ridx_main_v72 (ix2 p q) k = ix2 k q :=
  funext fun a => Fin.ext (by match a with | ⟨0, _⟩ => rfl | ⟨1, _⟩ => rfl)
theorem idxE : idx_main_v75 (ix2 p q) = ix2 (⟨0, Nat.one_pos⟩ : Fin 1) q :=
  funext fun a => Fin.ext (by match a with | ⟨0, _⟩ => rfl | ⟨1, _⟩ => rfl)
theorem idxD : idx_main_v74 (ix2 z q) = ix1 q :=
  funext fun a => Fin.ext (by match a with | ⟨0, _⟩ => rfl)
theorem idxS1 (k : Fin 128) : idx_main_v78 (ix1 p) k = ix2 p k :=
  funext fun a => Fin.ext (by match a with | ⟨0, _⟩ => rfl | ⟨1, _⟩ => rfl)
theorem idxS1b : idx_main_v79 (ix2 p z) = ix1 p :=
  funext fun a => Fin.ext (by match a with | ⟨0, _⟩ => rfl)
theorem idxMb : idx_main_v82 (ix2 p q) = ix2 p (⟨0, Nat.one_pos⟩ : Fin 1) :=
  funext fun a => Fin.ext (by match a with | ⟨0, _⟩ => rfl | ⟨1, _⟩ => rfl)
theorem idxS2 (k : Fin 128) : idx_main_v85 (ix1 p) k = ix2 p k :=
  funext fun a => Fin.ext (by match a with | ⟨0, _⟩ => rfl | ⟨1, _⟩ => rfl)
theorem idxS2b : idx_main_v86 (ix2 p z) = ix1 p :=
  funext fun a => Fin.ext (by match a with | ⟨0, _⟩ => rfl)
theorem idxMb2 : idx_main_v89 (ix2 p q) = ix2 p (⟨0, Nat.one_pos⟩ : Fin 1) :=
  funext fun a => Fin.ext (by match a with | ⟨0, _⟩ => rfl | ⟨1, _⟩ => rfl)
theorem idxRsb : idx_main_v94 (ix2 p q) = ix2 p (⟨0, Nat.one_pos⟩ : Fin 1) :=
  funext fun a => Fin.ext (by match a with | ⟨0, _⟩ => rfl | ⟨1, _⟩ => rfl)
theorem idxG2 : idx_main_v97 (ix2 p q) = ix2 (⟨0, Nat.one_pos⟩ : Fin 1) q :=
  funext fun a => Fin.ext (by match a with | ⟨0, _⟩ => rfl | ⟨1, _⟩ => rfl)
theorem idxG1 : idx_main_v96 (ix2 z q) = ix1 q :=
  funext fun a => Fin.ext (by match a with | ⟨0, _⟩ => rfl)
theorem idxB2 : idx_main_v100 (ix2 p q) = ix2 (⟨0, Nat.one_pos⟩ : Fin 1) q :=
  funext fun a => Fin.ext (by match a with | ⟨0, _⟩ => rfl | ⟨1, _⟩ => rfl)
theorem idxB1 : idx_main_v99 (ix2 z q) = ix1 q :=
  funext fun a => Fin.ext (by match a with | ⟨0, _⟩ => rfl)

end idx

/-! ## The stages at the entry `(p, q)` -/

/-- The clamped stage at `(p, q)` is the activated entry: the two contractions, the bias at `q`, the clamp at the zero word. -/
theorem act_at (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 x12 x13 : (⟨S128, .f32⟩ : BufTy).Contents (Elt Ideal)) (p : Fin 100000) (q : Fin 128) :
    val_main_v77 (F := Ideal) x0 x1 x2 x3 x4 x5 x6 x7 x8 x12 x13 (ix2 p q) = actAt (val_main_v50 (F := Ideal) x0 x1 x2 x3 x4 x5 x12 x13) (val_main_v70 (F := Ideal) x0 x1 x2 x3 x4 x5 x12 x13) x6 x7 x8 p q := by
  simp only [val_main_v77_apply, val_main_v76_apply, val_main_v73_apply, val_main_v71_apply, val_main_v72_apply, val_main_v75_apply, val_main_v74_apply, val_main_call3_v0_apply, val_main_call3_cst_apply,
    lidxA, ridxA, lidxB, ridxB, idxE, idxD, Ideal.addf_def, Ideal.maximumf_def, Ideal.ofBits_def]
  generalize val_main_v50 (F := Ideal) x0 x1 x2 x3 x4 x5 x12 x13 = h
  generalize val_main_v70 (F := Ideal) x0 x1 x2 x3 x4 x5 x12 x13 = hn
  rfl

/-- The mean stage at row `p` is the mean of the clamped row. -/
theorem mean_at (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 x12 x13 : (⟨S128, .f32⟩ : BufTy).Contents (Elt Ideal)) (p : Fin 100000) (z : Fin 1) :
    val_main_v81 (F := Ideal) x0 x1 x2 x3 x4 x5 x6 x7 x8 x12 x13 (ix2 p z) = mean (fun j => val_main_v77 (F := Ideal) x0 x1 x2 x3 x4 x5 x6 x7 x8 x12 x13 (ix2 p j)) := by
  simp only [val_main_v81_apply, val_main_v79_apply, val_main_v78_apply, val_main_v80_apply, val_main_cst_18_apply, val_main_cst_17_apply,
    idxS1b, idxS1, Ideal.hostDivf_def, Ideal.ofBits_def, zero_word_add]
  generalize val_main_v77 (F := Ideal) x0 x1 x2 x3 x4 x5 x6 x7 x8 x12 x13 = o
  rfl

/-- The variance stage at row `p` is the variance of the clamped row. -/
theorem var_at (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 x12 x13 : (⟨S128, .f32⟩ : BufTy).Contents (Elt Ideal)) (p : Fin 100000) (z : Fin 1) :
    val_main_v88 (F := Ideal) x0 x1 x2 x3 x4 x5 x6 x7 x8 x12 x13 (ix2 p z) = var (fun j => val_main_v77 (F := Ideal) x0 x1 x2 x3 x4 x5 x6 x7 x8 x12 x13 (ix2 p j)) := by
  simp only [val_main_v88_apply, val_main_v86_apply, val_main_v85_apply, val_main_v87_apply, val_main_cst_20_apply, val_main_cst_19_apply, val_main_v84_apply, val_main_v83_apply, val_main_v82_apply,
    idxS2b, idxS2, idxMb, mean_at, Ideal.hostDivf_def, Ideal.mulf_def, Ideal.subf_def, Ideal.ofBits_def, zero_word_add]
  generalize val_main_v77 (F := Ideal) x0 x1 x2 x3 x4 x5 x6 x7 x8 x12 x13 = o
  rfl

/-- The layer's last stage at `(p, q)` is the normalised entry of the clamped row. -/
theorem norm_at (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 x12 x13 x14 x15 : (⟨S128, .f32⟩ : BufTy).Contents (Elt Ideal)) (p : Fin 100000) (q : Fin 128) :
    val_main_v101 (F := Ideal) x0 x1 x2 x3 x4 x5 x6 x7 x8 x12 x13 x14 x15 (ix2 p q)
      = normAt (fun j => val_main_v77 (F := Ideal) x0 x1 x2 x3 x4 x5 x6 x7 x8 x12 x13 (ix2 p j)) (fun j => x14 (ix1 j)) (fun j => x15 (ix1 j)) q := by
  simp only [val_main_v101_apply, val_main_v98_apply, val_main_v100_apply, val_main_v99_apply, val_main_v97_apply, val_main_v96_apply, val_main_v95_apply, val_main_v94_apply, val_main_v93_apply, val_main_v92_apply, val_main_v91_apply, val_main_cst_21_apply, val_main_v90_apply, val_main_v89_apply,
    idxB2, idxB1, idxG2, idxG1, idxRsb, idxMb2, mean_at, var_at,
    Ideal.addf_def, Ideal.mulf_def, Ideal.subf_def, Ideal.hostUnary_rsqrt_def, Ideal.ofBits_def]
  generalize val_main_v77 (F := Ideal) x0 x1 x2 x3 x4 x5 x6 x7 x8 x12 x13 = o
  rfl

end L1

/-- The reference's layer is the normalising layer function of its two operand arrays and its parameters. -/
theorem ref_layer1 (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 x12 x13 x14 x15 : (⟨S128, .f32⟩ : BufTy).Contents (Elt Ideal)) :
    val_main_v101 (F := Ideal) x0 x1 x2 x3 x4 x5 x6 x7 x8 x12 x13 x14 x15
      = layerN (val_main_v50 (F := Ideal) x0 x1 x2 x3 x4 x5 x12 x13) (val_main_v70 (F := Ideal) x0 x1 x2 x3 x4 x5 x12 x13) x6 x7 x8 x14 x15 := by
  funext i
  obtain ⟨p, q, rfl⟩ : ∃ (p : Fin 100000) (q : Fin 128), i = ix2 p q := ⟨i 0, i 1, eq_ix2 i⟩
  rw [L1.norm_at, layerN_apply]
  exact congrArg (fun o => normAt o (fun j => x14 (ix1 j)) (fun j => x15 (ix1 j)) q)
    (funext fun j => L1.act_at x0 x1 x2 x3 x4 x5 x6 x7 x8 x12 x13 p j)

end Cert.ReferenceIdeal.RefValue

end
-- ==== Proof.RefLayer2.lean ====
import proofs.«172100_j7851200217530_2_alg».proof.Proof.ReferenceRead
import proofs.«172100_j7851200217530_2_alg».proof.Proof.Spec

/-!
# The reference's last layer is the shared layer function of its operands

The last layer has no normalisation: two contractions over the 128 channels of the second layer's
output and of its neighbour rows, the bias row broadcast over the nodes, and a clamp at the zero word.
Read at the entry `(p, q)`, each contraction reads row `p` and column `q` and the bias is read at the
channel `q`, which is the activated entry of the specification.  The two operand arrays are earlier
stages of the program and enter only as arrays.
-/

noncomputable section

open scoped BigOperators

namespace Cert.ReferenceIdeal.RefValue

open Idealize.ShloMosaic Idealize.ShloMosaic.ValueIdx Cert.ReferenceIdeal Cert.ReferenceIdeal.Read Cert.GraphLayer

namespace L2

/-! ## The composed index maps at explicit coordinates

Each contraction reads row `p` of its left operand and column `q` of its right operand; a row vector
broadcast over the nodes is read at the channel `q`. -/

section idx
variable (p : Fin 100000) (q : Fin 128) (z : Fin 1)

theorem lidxA (k : Fin 128) : lidx_main_v122 (ix2 p q) k = ix2 p k :=
  funext fun a => Fin.ext (by match a with | ⟨0, _⟩ => rfl | ⟨1, _⟩ => rfl)
theorem ridxA (k : Fin 128) : ridx_main_v122 (ix2 p q) k = ix2 k q :=
  funext fun a => Fin.ext (by match a with | ⟨0, _⟩ => rfl | ⟨1, _⟩ => rfl)
theorem lidxB (k : Fin 128) : lidx_main_v123 (ix2 p q) k = ix2 p k :=
  funext fun a => Fin.ext (by match a with | ⟨0, _⟩ => rfl | ⟨1, _⟩ => rfl)
theorem ridxB (k : Fin 128) : ridx_main_v123 (ix2 p q) k = ix2 k q :=
  funext fun a => Fin.ext (by match a with | ⟨0, _⟩ => rfl | ⟨1, _⟩ => rfl)
theorem idxE : idx_main_v126 (ix2 p q) = ix2 (⟨0, Nat.one_pos⟩ : Fin 1) q :=
  funext fun a => Fin.ext (by match a with | ⟨0, _⟩ => rfl | ⟨1, _⟩ => rfl)
theorem idxD : idx_main_v125 (ix2 z q) = ix1 q :=
  funext fun a => Fin.ext (by match a with | ⟨0, _⟩ => rfl)

end idx

/-! ## The stages at the entry `(p, q)` -/

/-- The clamped stage at `(p, q)` is the activated entry: the two contractions, the bias at `q`, the clamp at the zero word. -/
theorem act_at (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x128, .f32⟩ : BufTy).Contents (Elt Ideal)) (x11 x12 x13 x14 x15 : (⟨S128, .f32⟩ : BufTy).Contents (Elt Ideal)) (p : Fin 100000) (q : Fin 128) :
    val_main_v128 (F := Ideal) x0 x1 x2 x3 x4 x5 x6 x7 x8 x9 x10 x11 x12 x13 x14 x15 (ix2 p q) = actAt (val_main_v101 (F := Ideal) x0 x1 x2 x3 x4 x5 x6 x7 x8 x12 x13 x14 x15) (val_main_v121 (F := Ideal) x0 x1 x2 x3 x4 x5 x6 x7 x8 x12 x13 x14 x15) x9 x10 x11 p q := by
  simp only [val_main_v128_apply, val_main_v127_apply, val_main_v124_apply, val_main_v122_apply, val_main_v123_apply, val_main_v126_apply, val_main_v125_apply, val_main_call5_v0_apply, val_main_call5_cst_apply,
    lidxA, ridxA, lidxB, ridxB, idxE, idxD, Ideal.addf_def, Ideal.maximumf_def, Ideal.ofBits_def]
  generalize val_main_v101 (F := Ideal) x0 x1 x2 x3 x4 x5 x6 x7 x8 x12 x13 x14 x15 = h
  generalize val_main_v121 (F := Ideal) x0 x1 x2 x3 x4 x5 x6 x7 x8 x12 x13 x14 x15 = hn
  rfl

end L2

/-- The reference's last layer is the plain layer function of its two operand arrays and its parameters. -/
theorem ref_layer2 (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x128, .f32⟩ : BufTy).Contents (Elt Ideal)) (x11 x12 x13 x14 x15 : (⟨S128, .f32⟩ : BufTy).Contents (Elt Ideal)) :
    val_main_v128 (F := Ideal) x0 x1 x2 x3 x4 x5 x6 x7 x8 x9 x10 x11 x12 x13 x14 x15
      = layerP (val_main_v101 (F := Ideal) x0 x1 x2 x3 x4 x5 x6 x7 x8 x12 x13 x14 x15) (val_main_v121 (F := Ideal) x0 x1 x2 x3 x4 x5 x6 x7 x8 x12 x13 x14 x15) x9 x10 x11 := by
  funext i
  obtain ⟨p, q, rfl⟩ : ∃ (p : Fin 100000) (q : Fin 128), i = ix2 p q := ⟨i 0, i 1, eq_ix2 i⟩
  rw [layerP_apply]
  exact L2.act_at x0 x1 x2 x3 x4 x5 x6 x7 x8 x9 x10 x11 x12 x13 x14 x15 p q

end Cert.ReferenceIdeal.RefValue

end
-- ==== Proof.LibSegmentSum.lean ====
/-
  Permuting the updates of an accumulating scatter, and the reads around it.

  A segment sum `out[idx[e], :] += upd[e, :]` is a `stablehlo.scatter` with an `add` body over `E` scatter
  indices. Its value at the ideal instance is, at each operand element, the operand plus the SUM of the updates landing
  there: a sum over a finite set, so presenting the pairs (index, update row) in another order — through any bijection
  `σ` of the `E` positions — changes nothing. Here: that statement for the row scatter `[N, C] ← [E, 1], [E, C]` and
  for the flat scatter `[N] ← [E, 1], [E]`; the gathers `x[idx]` of rows and of a flat table read at an index
  (start index read signed and clamped); and that an argsort (a two-operand sort carrying an iota) returns the words of
  a bijection of the positions.
-/
import Idealize.ShloMosaic.PureOps.Ideal
import Idealize.ShloMosaic.PureOps.Ideal.Laws
import Idealize.ShloMosaic.Lib.ValueIdx
import Idealize.ShloMosaic.Lib.SortFacts

noncomputable section

open scoped BigOperators

namespace Idealize.ShloMosaic.SegmentSum

open Idealize.ShloMosaic Idealize.ShloMosaic.ValueIdx

/-! ## The result index of an update depends only on its start and window coordinates -/

/-- Two update indices (under two index tables) with the same window start and the same window coordinate on every
    operand axis land at the same operand element, or are both dropped. -/
theorem resultIdx?_congr {s si u : Shape} (d : ScatterDims s si u) {w : Nat} (j j' : u.Idx) (idx idx' : IVec si w)
    (hs : ∀ a, d.start j idx a = d.start j' idx' a) (hw : ∀ a, d.window j a = d.window j' a) :
    d.resultIdx? j idx = d.resultIdx? j' idx' := by
  unfold ScatterDims.resultIdx?
  simp only [hs, hw]

/-! ## The row scatter `[N, C] ← [E, 1], [E, C]` -/

/-- The dimension numbers of `x.at[idx].add(upd)` for a table `x : [N, C]`, indices `idx : [E, 1]` and update rows
    `upd : [E, C]`: update axis 1 is the window (a whole row), operand axis 0 is inserted and is the one the scatter
    index names; the index vector is axis 1 of the indices. Their conditions `wf` are decided on literal shapes. -/
abbrev rowsScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- Update `(e, ch)` starts, on the row axis, at the signed word `idx[e, 0]`. -/
theorem rows_start_zero (idx : IVec ⟨2, ![E, 1]⟩ w) (e : Fin E) (ch : Fin C) :
    (rowsScatterDims N E C wf).start (ix2 e ch) idx 0 = (idx (ix2 e 0)).toInt := by
  unfold ScatterDims.start
  rw [dif_pos (show (0 : Fin 2) ∈ (rowsScatterDims N E C wf).scatterDimsToOperandDims from List.mem_singleton.mpr rfl)]
  have hsi : (rowsScatterDims N E C wf).siIdx (ix2 e ch)
      ⟨List.idxOf (0 : Fin 2) (rowsScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and at `0` on the channel axis, which the scatter index does not name. -/
theorem rows_start_one (idx : IVec ⟨2, ![E, 1]⟩ w) (j : (⟨2, ![E, C]⟩ : Shape).Idx) :
    (rowsScatterDims N E C wf).start j idx 1 = 0 := by
  unfold ScatterDims.start
  rw [dif_neg (show (1 : Fin 2) ∉ ([0] : List (Fin 2)) from by decide)]

/-- Its window coordinate is `0` on the (inserted) row axis … -/
theorem rows_window_zero (j : (⟨2, ![E, C]⟩ : Shape).Idx) : (rowsScatterDims N E C wf).window j 0 = 0 := by
  unfold ScatterDims.window
  have h : (0 : Fin 2) ∉ (rowsScatterDims N E C wf).sKept :=
    show (0 : Fin 2) ∉ (List.finRange 2).filter (fun a => a ∉ ([0] : List (Fin 2))) from by decide
  rw [dif_neg h]

/-- … and its channel on the channel axis. -/
theorem rows_window_one (j : (⟨2, ![E, C]⟩ : Shape).Idx) : (rowsScatterDims N E C wf).window j 1 = (j 1).val := by
  unfold ScatterDims.window
  have h : (1 : Fin 2) ∈ (rowsScatterDims N E C wf).sKept :=
    show (1 : Fin 2) ∈ (List.finRange 2).filter (fun a => a ∉ ([0] : List (Fin 2))) from by decide
  rw [dif_pos h]
  rfl

/-- Where update `(e, ch)` lands depends on the index table only through the word `idx[e, 0]`: two tables that hold
    the same word at `e` and at `e'` send `(e, ch)` and `(e', ch)` to the same element. -/
theorem rows_resultIdx?_congr (idx idx' : IVec ⟨2, ![E, 1]⟩ w) (e e' : Fin E) (ch : Fin C)
    (h : idx' (ix2 e' 0) = idx (ix2 e 0)) :
    (rowsScatterDims N E C wf).resultIdx? (ix2 e' ch) idx' = (rowsScatterDims N E C wf).resultIdx? (ix2 e ch) idx := by
  refine resultIdx?_congr _ _ _ _ _ (fun a => ?_) (fun a => ?_)
  · match a with
    | ⟨0, _⟩ => exact (rows_start_zero wf idx' e' ch).trans ((congrArg BitVec.toInt h).trans (rows_start_zero wf idx e ch).symm)
    | ⟨1, _⟩ => exact (rows_start_one wf idx' _).trans (rows_start_one wf idx _).symm
  · match a with
    | ⟨0, _⟩ => exact (rows_window_zero wf _).trans (rows_window_zero wf _).symm
    | ⟨1, _⟩ => exact (rows_window_one wf _).trans (rows_window_one wf _).symm

/-- A bijection of the `E` positions, applied to the first coordinate of an update index. -/
def rowsEquiv (σ : Fin E ≃ Fin E) : (⟨2, ![E, C]⟩ : Shape).Idx ≃ (⟨2, ![E, C]⟩ : Shape).Idx where
  toFun j := ix2 (σ (j 0)) (j 1)
  invFun j := ix2 (σ.symm (j 0)) (j 1)
  left_inv j := by
    funext a
    match a with
    | ⟨0, _⟩ => exact σ.symm_apply_apply _
    | ⟨1, _⟩ => rfl
  right_inv j := by
    funext a
    match a with
    | ⟨0, _⟩ => exact σ.apply_symm_apply _
    | ⟨1, _⟩ => rfl

/-- PERMUTING THE UPDATES OF THE ROW SCATTER: if `idx'`, `upd'` are `idx`, `upd` read through a bijection `σ` of the
    `E` positions (`idx'[e] = idx[σ e]`, `upd'[e, :] = upd[σ e, :]`), the accumulating scatter of `upd'` at `idx'`
    is that of `upd` at `idx`: at each element, the same updates are summed, listed in another order. -/
theorem rows_scatterAdd_reindex (σ : Fin E → Fin E) (hσ : Function.Bijective σ)
    (x : (⟨2, ![N, C]⟩ : Shape).Idx → EReal) (idx idx' : IVec ⟨2, ![E, 1]⟩ w)
    (upd upd' : (⟨2, ![E, C]⟩ : Shape).Idx → EReal)
    (hidx : ∀ e : Fin E, idx' (ix2 e 0) = idx (ix2 (σ e) 0))
    (hupd : ∀ (e : Fin E) (ch : Fin C), upd' (ix2 e ch) = upd (ix2 (σ e) ch)) :
    Ideal.hostScatterAdd (rowsScatterDims N E C wf) x idx' upd' = Ideal.hostScatterAdd (rowsScatterDims N E C wf) x idx upd := by
  funext i
  unfold Ideal.hostScatterAdd
  congr 1
  rw [Finset.sum_filter, Finset.sum_filter]
  refine Fintype.sum_equiv (rowsEquiv (Equiv.ofBijective σ hσ)) _ _ (fun j => ?_)
  obtain ⟨e, ch, rfl⟩ : ∃ e ch, j = ix2 e ch := ⟨j 0, j 1, eq_ix2 j⟩
  show (if (rowsScatterDims N E C wf).resultIdx? (ix2 e ch) idx' = some i then upd' (ix2 e ch) else 0)
    = if (rowsScatterDims N E C wf).resultIdx? (ix2 (σ e) ch) idx = some i then upd (ix2 (σ e) ch) else 0
  rw [rows_resultIdx?_congr wf idx idx' (σ e) e ch (hidx e), hupd e ch]

end Rows

/-! ## The flat scatter `[N] ← [E, 1], [E]` -/

/-- The dimension numbers of `x.at[idx].add(upd)` for a flat table `x : [N]`, indices `idx : [E, 1]` and updates
    `upd : [E]`: no window axis, operand axis 0 inserted and named by the scatter index; the index vector is axis 1 of
    the indices. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)

/-- Update `e` starts at the signed word `idx[e, 0]`. -/
theorem flat_start_zero (idx : IVec ⟨2, ![E, 1]⟩ w) (e : Fin E) :
    (flatScatterDims N E wf).start (ix1 e) idx 0 = (idx (ix2 e 0)).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- It has no window: its window coordinate is `0`. -/
theorem flat_window_zero (j : (⟨1, ![E]⟩ : Shape).Idx) : (flatScatterDims N E wf).window j 0 = 0 := by
  unfold ScatterDims.window
  have h : (0 : Fin 1) ∉ (flatScatterDims N E wf).sKept :=
    show (0 : Fin 1) ∉ (List.finRange 1).filter (fun a => a ∉ ([0] : List (Fin 1))) from by decide
  rw [dif_neg h]

/-- Where update `e` lands depends on the index table only through the word `idx[e, 0]`. -/
theorem flat_resultIdx?_congr (idx idx' : IVec ⟨2, ![E, 1]⟩ w) (e e' : Fin E)
    (h : idx' (ix2 e' 0) = idx (ix2 e 0)) :
    (flatScatterDims N E wf).resultIdx? (ix1 e') idx' = (flatScatterDims N E wf).resultIdx? (ix1 e) idx := by
  refine resultIdx?_congr _ _ _ _ _ (fun a => ?_) (fun a => ?_)
  · match a with
    | ⟨0, _⟩ => exact (flat_start_zero wf idx' e').trans ((congrArg BitVec.toInt h).trans (flat_start_zero wf idx e).symm)
  · match a with
    | ⟨0, _⟩ => exact (flat_window_zero wf _).trans (flat_window_zero wf _).symm

/-- A bijection of the `E` positions, as one of the rank-1 indices. -/
def flatEquiv (σ : Fin E ≃ Fin E) : (⟨1, ![E]⟩ : Shape).Idx ≃ (⟨1, ![E]⟩ : Shape).Idx where
  toFun j := ix1 (σ (j 0))
  invFun j := ix1 (σ.symm (j 0))
  left_inv j := by
    funext a
    match a with
    | ⟨0, _⟩ => exact σ.symm_apply_apply _
  right_inv j := by
    funext a
    match a with
    | ⟨0, _⟩ => exact σ.apply_symm_apply _

/-- PERMUTING THE UPDATES OF THE FLAT SCATTER: if `idx'`, `upd'` are `idx`, `upd` read through a bijection `σ` of the
    `E` positions, the accumulating scatter of `upd'` at `idx'` is that of `upd` at `idx`. (For a count — constant
    updates — the hypothesis on the updates holds by `rfl`.) -/
theorem flat_scatterAdd_reindex (σ : Fin E → Fin E) (hσ : Function.Bijective σ)
    (x : (⟨1, ![N]⟩ : Shape).Idx → EReal) (idx idx' : IVec ⟨2, ![E, 1]⟩ w)
    (upd upd' : (⟨1, ![E]⟩ : Shape).Idx → EReal)
    (hidx : ∀ e : Fin E, idx' (ix2 e 0) = idx (ix2 (σ e) 0))
    (hupd : ∀ e : Fin E, upd' (ix1 e) = upd (ix1 (σ e))) :
    Ideal.hostScatterAdd (flatScatterDims N E wf) x idx' upd' = Ideal.hostScatterAdd (flatScatterDims N E wf) x idx upd := by
  funext i
  unfold Ideal.hostScatterAdd
  congr 1
  rw [Finset.sum_filter, Finset.sum_filter]
  refine Fintype.sum_equiv (flatEquiv (Equiv.ofBijective σ hσ)) _ _ (fun j => ?_)
  obtain ⟨e, rfl⟩ : ∃ e, j = ix1 e := ⟨j 0, eq_ix1 j⟩
  show (if (flatScatterDims N E wf).resultIdx? (ix1 e) idx' = some i then upd' (ix1 e) else 0)
    = if (flatScatterDims N E wf).resultIdx? (ix1 (σ e)) idx = some i then upd (ix1 (σ e)) else 0
  rw [flat_resultIdx?_congr wf idx idx' (σ e) e (hidx e), hupd e]

end Flat

/-! ## The gathers read at an index -/

/-- The dimension numbers of `x[idx]` (rows) for a table `x : [N, C]`, indices `idx : [E, 1]` and result `[E, C]`:
    result axis 1 is the offset (a whole row), operand axis 0 is collapsed and is the one the start index names; the
    index vector is axis 1 of the indices; slices are `1 × C`. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section RowsGather
variable {N E C w : Nat} (wf : GatherDims.WF ⟨2, ![N, C]⟩ ⟨2, ![E, 1]⟩ ⟨2, ![E, C]⟩ [1] [0] [] [0] [] 1 ![1, C])

/-- Result element `(e, ch)` reads the row `idx[e, 0]`, signed and clamped into `[0, N − 1]` … -/
theorem rows_operandIdx_zero (idx : IVec ⟨2, ![E, 1]⟩ w) (e : Fin E) (ch : Fin C) :
    ((rowsGatherDims N E C wf).operandIdx (ix2 e ch) idx 0).val = min (idx (ix2 e 0)).toInt.toNat (N - 1) := by
  show (rowsGatherDims N E C wf).start (ix2 e ch) idx 0 + (rowsGatherDims N E C wf).batchCoord (ix2 e ch) 0
    + (rowsGatherDims N E C wf).offCoord (ix2 e ch) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsGatherDims N E C wf).startIndexMap from List.mem_singleton.mpr rfl)]
  have hsi : (rowsGatherDims N E C wf).siIdx (ix2 e ch) ⟨List.idxOf (0 : Fin 2) (rowsGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … at channel `ch`. -/
theorem rows_operandIdx_one (idx : IVec ⟨2, ![E, 1]⟩ w) (e : Fin E) (ch : Fin C) :
    ((rowsGatherDims N E C wf).operandIdx (ix2 e ch) idx 1).val = ch.val := by
  show (rowsGatherDims N E C wf).start (ix2 e ch) idx 1 + (rowsGatherDims N E C wf).batchCoord (ix2 e ch) 1
    + (rowsGatherDims N E C wf).offCoord (ix2 e ch) 1 = _
  rw [GatherDims.batchCoord_eq_zero _ _ _ List.not_mem_nil]
  unfold GatherDims.start
  rw [dif_neg (show (1 : Fin 2) ∉ ([0] : List (Fin 2)) from by decide)]
  unfold GatherDims.offCoord
  have h : (1 : Fin 2) ∈ (rowsGatherDims N E C wf).sKept :=
    (GatherDims.mem_sKept _ _).mpr ⟨show (1 : Fin 2) ∉ ([0] : List (Fin 2)) from by decide, List.not_mem_nil⟩
  rw [dif_pos h]
  simp only [Nat.zero_add, Nat.add_zero]
  rfl

/-- THE ROW GATHER READ AT `(e, ch)`: the table at row `idx[e, 0]` — read signed and clamped into `[0, N − 1]` — and
    channel `ch`. -/
theorem rows_gather_apply {α : Type} (hN : 0 < N)
    (x : (⟨2, ![N, C]⟩ : Shape).Idx → α) (idx : IVec ⟨2, ![E, 1]⟩ w) (e : Fin E) (ch : Fin C) :
    Host.gather (rowsGatherDims N E C wf) x idx (ix2 e ch)
      = x (ix2 ⟨min (idx (ix2 e 0)).toInt.toNat (N - 1), by omega⟩ ch) := by
  unfold Host.gather
  congr 1
  funext a
  refine Fin.ext ?_
  match a with
  | ⟨0, _⟩ => exact rows_operandIdx_zero wf idx e ch
  | ⟨1, _⟩ => exact rows_operandIdx_one wf idx e ch

end RowsGather

/-- The dimension numbers of `x[idx]` for a flat table `x : [M]`, indices `idx : [E, 1]` and result `[E]`: no offset
    axis, operand axis 0 collapsed and named by the start index; the index vector is axis 1 of the indices; slices of
    one element. -/
abbrev flatGatherDims (M E : Nat)
    (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into
    `[0, M − 1]`. -/
theorem flat_gather_apply {α : Type} {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (e : Fin E) :
    Host.gather (flatGatherDims M E wf) x idx (ix1 e) = x (ix1 ⟨min (idx (ix2 e 0)).toInt.toNat (M - 1), by omega⟩) := by
  unfold Host.gather
  congr 1
  funext a
  obtain rfl : a = 0 := Subsingleton.elim _ _
  refine Fin.ext ?_
  show (flatGatherDims M E wf).start (ix1 e) idx 0 + (flatGatherDims M E wf).batchCoord (ix1 e) 0
    + (flatGatherDims M E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims M E wf).startIndexMap from List.mem_singleton.mpr rfl)]
  have hsi : (flatGatherDims M E wf).siIdx (ix1 e) ⟨List.idxOf (0 : Fin 1) (flatGatherDims M E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## An argsort returns the words of a bijection of the positions -/

/-- The second component of a two-operand sort of rank-1 tables along axis 0 reads the second table through ONE
    self-map of the positions: `sortedFrom` of the comparator on the pairs of words. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- … and the first component reads the first table through the same map. -/
theorem sort2_fst_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).1 j
      = x (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The rank-1 index at coordinate `k`, in the two notations. -/
theorem ofFin_eq_ix1 {n : Nat} (k : Fin n) : Shape.Idx.ofFin k = ix1 k := by
  funext a
  match a with
  | ⟨0, _⟩ => rfl

/-- AN ARGSORT IS A PERMUTATION: sorting keys together with the iota of their positions, under any comparator, leaves
    in the second table the words of a bijection `σ` of the positions — position `e` holds the word `σ e` — and in the
    first the keys read through `σ`. -/
theorem argsort_perm {E : Nat} (cmp : BitVec 32 × BitVec 32 → BitVec 32 × BitVec 32 → BitVec 1)
    (keys : IVec ⟨1, ![E]⟩ 32) :
    ∃ σ : Fin E → Fin E, Function.Bijective σ ∧
      (∀ e : Fin E, (Host.sort2 ⟨1, ![E]⟩ 0 cmp keys (iotaInDim ⟨1, ![E]⟩ 32 0)).2 (ix1 e) = BitVec.ofNat 32 (σ e).val) ∧
      ∀ e : Fin E, (Host.sort2 ⟨1, ![E]⟩ 0 cmp keys (iotaInDim ⟨1, ![E]⟩ 32 0)).1 (ix1 e) = keys (ix1 (σ e)) := by
  refine ⟨sortedFrom (fun k k' => cmp (keys (Shape.Idx.ofFin k), iotaInDim ⟨1, ![E]⟩ 32 0 (Shape.Idx.ofFin k))
      (keys (Shape.Idx.ofFin k'), iotaInDim ⟨1, ![E]⟩ 32 0 (Shape.Idx.ofFin k')) == 1#1),
    ⟨sortedFrom_injective _, sortedFrom_surjective _⟩, fun e => ?_, fun e => ?_⟩
  · rw [sort2_snd_rank1]
    rfl
  · rw [sort2_fst_rank1]
    exact congrArg keys (ofFin_eq_ix1 _)

/-! ## Position words below `2 ^ 31` -/

/-- A position `k < 2 ^ 31`, written as a 32-bit word and read back SIGNED, is `k`. -/
theorem toInt_ofNat_of_lt {k : Nat} (hk : k < 2 ^ 31) : (BitVec.ofNat 32 k).toInt = (k : Int) := by
  rw [BitVec.toInt_eq_toNat_cond, BitVec.toNat_ofNat]
  have : k % 2 ^ 32 = k := Nat.mod_eq_of_lt (by omega)
  rw [this]
  split
  · rfl
  · omega

/-- … so it is not negative as a signed word … -/
theorem toInt_ofNat_nonneg {k : Nat} (hk : k < 2 ^ 31) : 0 ≤ (BitVec.ofNat 32 k).toInt := by
  rw [toInt_ofNat_of_lt hk]; exact Int.natCast_nonneg k

/-- … and, for a position of a table of `E` entries, the clamp into `[0, E − 1]` leaves it alone. -/
theorem clamp_ofNat_of_lt {E k : Nat} (hE : E < 2 ^ 31) (hk : k < E) :
    min (BitVec.ofNat 32 k).toInt.toNat (E - 1) = k := by
  rw [toInt_ofNat_of_lt (by omega)]
  simp only [Int.toNat_natCast]
  omega

/-! ## Reads through a table of position words, and the gather–scatter pair under a permutation -/

section Perm
variable {E : Nat}

/-- A flat table gathered through the words of a map `σ` of its `E < 2 ^ 31` positions is the table read through
    `σ`: a position word is not negative and below `E`, so the clamp leaves it alone. -/
theorem flat_gather_perm {α : Type} (hE : E < 2 ^ 31)
    (wf : GatherDims.WF ⟨1, ![E]⟩ ⟨2, ![E, 1]⟩ ⟨1, ![E]⟩ [] [0] [] [0] [] 1 ![1])
    (x : (⟨1, ![E]⟩ : Shape).Idx → α) (perm : IVec ⟨2, ![E, 1]⟩ 32) (σ : Fin E → Fin E)
    (hperm : ∀ e : Fin E, perm (ix2 e 0) = BitVec.ofNat 32 (σ e).val) (e : Fin E) :
    Host.gather (flatGatherDims E E wf) x perm (ix1 e) = x (ix1 (σ e)) := by
  rw [flat_gather_apply (Nat.zero_lt_of_lt e.isLt) wf x perm e]
  congr 2
  refine Fin.ext ?_
  show min (perm (ix2 e 0)).toInt.toNat (E - 1) = (σ e).val
  rw [hperm e]
  exact clamp_ofNat_of_lt hE (σ e).isLt

/-- The rows of an `[E, C]` table gathered through the words of a map `σ` of the `E < 2 ^ 31` positions are the rows
    read through `σ`. -/
theorem rows_gather_perm {α : Type} {C : Nat} (hE : E < 2 ^ 31)
    (wf : GatherDims.WF ⟨2, ![E, C]⟩ ⟨2, ![E, 1]⟩ ⟨2, ![E, C]⟩ [1] [0] [] [0] [] 1 ![1, C])
    (x : (⟨2, ![E, C]⟩ : Shape).Idx → α) (perm : IVec ⟨2, ![E, 1]⟩ 32) (σ : Fin E → Fin E)
    (hperm : ∀ e : Fin E, perm (ix2 e 0) = BitVec.ofNat 32 (σ e).val) (e : Fin E) (ch : Fin C) :
    Host.gather (rowsGatherDims E E C wf) x perm (ix2 e ch) = x (ix2 (σ e) ch) := by
  rw [rows_gather_apply wf (Nat.zero_lt_of_lt e.isLt) x perm e ch]
  congr 2
  refine Fin.ext ?_
  show min (perm (ix2 e 0)).toInt.toNat (E - 1) = (σ e).val
  rw [hperm e]
  exact clamp_ofNat_of_lt hE (σ e).isLt

end Perm

section GatherScatter
variable {N E C w : Nat}

/-- Which row result element `(e, ch)` of the row gather reads depends on the index table only through the word
    `idx[e, 0]`. -/
theorem rows_gather_congr {α : Type}
    (wf : GatherDims.WF ⟨2, ![N, C]⟩ ⟨2, ![E, 1]⟩ ⟨2, ![E, C]⟩ [1] [0] [] [0] [] 1 ![1, C])
    (x : (⟨2, ![N, C]⟩ : Shape).Idx → α) (idx idx' : IVec ⟨2, ![E, 1]⟩ w) (e e' : Fin E) (ch : Fin C)
    (h : idx' (ix2 e' 0) = idx (ix2 e 0)) :
    Host.gather (rowsGatherDims N E C wf) x idx' (ix2 e' ch) = Host.gather (rowsGatherDims N E C wf) x idx (ix2 e ch) := by
  unfold Host.gather
  congr 1
  funext a
  refine Fin.ext ?_
  match a with
  | ⟨0, _⟩ =>
    exact (rows_operandIdx_zero wf idx' e' ch).trans
      ((congrArg (fun v : BitVec w => min v.toInt.toNat (N - 1)) h).trans (rows_operandIdx_zero wf idx e ch).symm)
  | ⟨1, _⟩ => exact (rows_operandIdx_one wf idx' e' ch).trans (rows_operandIdx_one wf idx e ch).symm

/-- THE SEGMENT SUM UNDER A PERMUTATION OF THE EDGES: gathering the rows of `x` at source indices and accumulating
    them at destination indices gives the same table when both index tables are read through one bijection `σ` of the
    `E` positions (`src'[e] = src[σ e]`, `dst'[e] = dst[σ e]`) — the messages are then `msg'[e, :] = msg[σ e, :]`, and
    the accumulating scatter does not see the order of its updates. -/
theorem rows_gather_scatterAdd_reindex
    (wfG : GatherDims.WF ⟨2, ![N, C]⟩ ⟨2, ![E, 1]⟩ ⟨2, ![E, C]⟩ [1] [0] [] [0] [] 1 ![1, C])
    {M : Nat} (wfS : ScatterDims.WF ⟨2, ![M, C]⟩ ⟨2, ![E, 1]⟩ ⟨2, ![E, C]⟩ [1] [0] [0] 1)
    (σ : Fin E → Fin E) (hσ : Function.Bijective σ)
    (x : (⟨2, ![N, C]⟩ : Shape).Idx → EReal) (acc : (⟨2, ![M, C]⟩ : Shape).Idx → EReal)
    (src src' dst dst' : IVec ⟨2, ![E, 1]⟩ w)
    (hsrc : ∀ e : Fin E, src' (ix2 e 0) = src (ix2 (σ e) 0))
    (hdst : ∀ e : Fin E, dst' (ix2 e 0) = dst (ix2 (σ e) 0)) :
    Ideal.hostScatterAdd (rowsScatterDims M E C wfS) acc dst' (Host.gather (rowsGatherDims N E C wfG) x src')
      = Ideal.hostScatterAdd (rowsScatterDims M E C wfS) acc dst (Host.gather (rowsGatherDims N E C wfG) x src) :=
  rows_scatterAdd_reindex wfS σ hσ acc dst dst' _ _ hdst
    (fun e ch => rows_gather_congr wfG x src src' (σ e) e ch (hsrc e))

end GatherScatter

end Idealize.ShloMosaic.SegmentSum

end
-- ==== Proof.LibScatterAddRead.lean ====
/-
  An accumulating scatter read at one element as a sum over the update positions.

  `x.at[idx].add(upd)` is a `stablehlo.scatter` with an `add` body over `E` scatter indices. At the ideal values its
  result at an operand element is the operand there plus the sum of the updates that LAND there. An update lands at an
  element exactly when, on every operand axis, its window start (the index word read signed, not clamped, on the axis
  the scatter index names; 0 on the others) plus its window coordinate is the element's coordinate; an update whose
  start falls outside the operand lands nowhere. For the row scatter `[N, C] ← [E, 1], [E, C]` update `(e, ch)` lands at
  `(c, d)` iff the signed word `idx[e, 0]` is `c` and `ch = d`, so the result at `(c, d)` is
  `x[c, d] + ∑ e, (if idx[e, 0] = c then upd[e, d] else 0)` — a segment sum written as a sum over ALL positions of a term
  that vanishes off the segment. The same for the flat scatter `[N] ← [E, 1], [E]` (a count, with constant updates).
  The dimension records are those of the permutation lemmas for the same two scatters (`rowsScatterDims`,
  `flatScatterDims`).
-/
import Idealize.ShloMosaic.PureOps.Ideal
import Idealize.ShloMosaic.Lib.ValueIdx
import proofs.«172100_j7851200217530_2_alg».proof.Proof.LibSegmentSum

noncomputable section

open scoped BigOperators

namespace Idealize.ShloMosaic.ScatterAddRead

open Idealize.ShloMosaic Idealize.ShloMosaic.ValueIdx Idealize.ShloMosaic.SegmentSum

/-- An update lands at `i` iff start plus window coordinate is `i`'s coordinate on every operand axis (in particular
    the sum is then inside the operand on every axis; otherwise the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have := congrArg (fun f : s.Idx => ((f a).val : Int)) e'
      simp only at this
      rw [← this]
      exact (Int.toNat_of_nonneg (h a).1).symm
    · intro H
      refine congrArg some (funext fun a => Fin.ext ?_)
      show (d.start j idx a + (d.window j a : Int)).toNat = (i a).val
      rw [H a]
      exact Int.toNat_natCast _
  · rename_i h
    constructor
    · intro e; exact absurd e (by simp)
    · intro H
      exact absurd (fun a => by rw [H a]; exact ⟨Int.natCast_nonneg _, by exact_mod_cast (i a).isLt⟩) h

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ (fun i => ?_)
  exact congrArg f (eq_ix1 i)

section Rows
variable {N E C w : Nat} (wf : ScatterDims.WF ⟨2, ![N, C]⟩ ⟨2, ![E, 1]⟩ ⟨2, ![E, C]⟩ [1] [0] [0] 1)

/-- Row update `(e, ch)` lands at `(c, d)` iff the signed index word of position `e` is `c` and `ch = d`. -/
theorem rows_lands_iff (idx : IVec ⟨2, ![E, 1]⟩ w) (e : Fin E) (ch : Fin C) (c : Fin N) (d : Fin C) :
    (rowsScatterDims N E C wf).resultIdx? (ix2 e ch) idx = some (ix2 c d)
      ↔ ((idx (ix2 e 0)).toInt = (c.val : Int) ∧ ch = d) := by
  rw [resultIdx?_eq_some_iff, Fin.forall_fin_two]
  rw [rows_start_zero wf idx e ch, rows_start_one wf idx, rows_window_zero wf, rows_window_one wf]
  show ((idx (ix2 e 0)).toInt + ((0 : Nat) : Int) = (c.val : Int) ∧ (0 : Int) + (ch.val : Int) = (d.val : Int)) ↔ _
  rw [Nat.cast_zero, add_zero, zero_add]
  refine and_congr Iff.rfl ?_
  constructor
  · intro h; exact Fin.ext (by exact_mod_cast h)
  · intro h; rw [h]

/-- THE ROW SCATTER AT `(c, d)`: the operand there plus, over all positions `e`, update row `e`'s channel `d` when the
    signed index word of `e` is `c`. -/
theorem rows_scatterAdd_apply (x : (⟨2, ![N, C]⟩ : Shape).Idx → EReal) (idx : IVec ⟨2, ![E, 1]⟩ w)
    (upd : (⟨2, ![E, C]⟩ : Shape).Idx → EReal) (c : Fin N) (d : Fin C) :
    Ideal.hostScatterAdd (rowsScatterDims N E C wf) x idx upd (ix2 c d)
      = x (ix2 c d) + ∑ e : Fin E, if (idx (ix2 e 0)).toInt = (c.val : Int) then upd (ix2 e d) else 0 := by
  unfold Ideal.hostScatterAdd
  refine congrArg (x (ix2 c d) + ·) ?_
  rw [Finset.sum_filter, sum_idx2]
  refine Finset.sum_congr rfl fun e _ => ?_
  simp only [rows_lands_iff wf idx e _ c d]
  by_cases hl : (idx (ix2 e 0)).toInt = (c.val : Int)
  · simp only [hl, true_and, if_true]
    rw [Finset.sum_ite_eq' Finset.univ d (fun ch => upd (ix2 e ch)), if_pos (Finset.mem_univ _)]
  · simp only [hl, false_and, if_false, Finset.sum_const_zero]

end Rows

section Flat
variable {N E w : Nat} (wf : ScatterDims.WF ⟨1, ![N]⟩ ⟨2, ![E, 1]⟩ ⟨1, ![E]⟩ [] [0] [0] 1)

/-- Flat update `e` lands at `c` iff the signed index word of position `e` is `c`. -/
theorem flat_lands_iff (idx : IVec ⟨2, ![E, 1]⟩ w) (e : Fin E) (c : Fin N) :
    (flatScatterDims N E wf).resultIdx? (ix1 e) idx = some (ix1 c) ↔ (idx (ix2 e 0)).toInt = (c.val : Int) := by
  rw [resultIdx?_eq_some_iff]
  constructor
  · intro H
    have h0 := H 0
    rw [flat_start_zero wf idx e, flat_window_zero wf] at h0
    have h1 : (idx (ix2 e 0)).toInt + ((0 : Nat) : Int) = (c.val : Int) := h0
    rw [Nat.cast_zero, add_zero] at h1
    exact h1
  · intro h a
    obtain rfl : a = 0 := Subsingleton.elim _ _
    rw [flat_start_zero wf idx e, flat_window_zero wf]
    show (idx (ix2 e 0)).toInt + ((0 : Nat) : Int) = (c.val : Int)
    rw [Nat.cast_zero, add_zero]
    exact h

/-- THE FLAT SCATTER AT `c`: the operand there plus, over all positions `e`, update `e` when the signed index word of
    `e` is `c` (with constant updates `1`: the number of positions whose word is `c`). -/
theorem flat_scatterAdd_apply (x : (⟨1, ![N]⟩ : Shape).Idx → EReal) (idx : IVec ⟨2, ![E, 1]⟩ w)
    (upd : (⟨1, ![E]⟩ : Shape).Idx → EReal) (c : Fin N) :
    Ideal.hostScatterAdd (flatScatterDims N E wf) x idx upd (ix1 c)
      = x (ix1 c) + ∑ e : Fin E, if (idx (ix2 e 0)).toInt = (c.val : Int) then upd (ix1 e) else 0 := by
  unfold Ideal.hostScatterAdd
  refine congrArg (x (ix1 c) + ·) ?_
  rw [Finset.sum_filter, sum_idx1]
  refine Finset.sum_congr rfl fun e _ => ?_
  simp only [flat_lands_iff wf idx e c]

end Flat

/-- A 32-bit index word equals the word of a position `c < 2 ^ 31` iff its signed value is `c`: with it the
    conditions above read "the index word is the word of `c`". -/
theorem toInt_eq_iff_eq_ofNat (v : BitVec 32) {c : Nat} (hc : c < 2 ^ 31) :
    v.toInt = (c : Int) ↔ v = BitVec.ofNat 32 c := by
  constructor
  · intro h
    exact BitVec.eq_of_toInt_eq (h.trans (toInt_ofNat_of_lt hc).symm)
  · intro h
    rw [h]; exact toInt_ofNat_of_lt hc

end Idealize.ShloMosaic.ScatterAddRead

end
-- ==== Proof.InvDeg.lean ====
/-
  Mean aggregation over in-neighbours: dividing by the clamped in-degree is multiplying by its reciprocal.

  The in-degree of a node is the number of edges that land on it: a sum, over all edges, of a term that is one when the
  edge's destination word is the node and zero otherwise. It is therefore a natural number n, seen as an extended real.
  One program divides the neighbour sum by "n if n > 0 else 1"; the other multiplies it by 1 / max(n, 1). For n = 0 both
  divisors are 1; for n ≥ 1 both are n, a nonzero real, and dividing an extended real by a nonzero real c is multiplying
  it by the real 1 / c (at the infinities too). So the two agree at every entry, for every extended real numerator.
-/
import proofs.«172100_j7851200217530_2_alg».proof.Proof.NetDefs
import proofs.«172100_j7851200217530_2_alg».proof.Proof.LibScatterAddRead
import proofs.«172100_j7851200217530_2_alg».proof.Proof.LibKeepDims
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.GraphLayer.InvDeg

open Idealize.ShloMosaic Idealize.ShloMosaic.ValueIdx Cert.ReferenceIdeal Cert.ReferenceIdeal.Read Cert.GraphLayer.Net

/-! ## The word of 1.0 -/

/-- The f32 word 0x3F800000 denotes the extended real 1. -/
theorem ofBits_one_f32 : Ideal.ofBits .f32 0x3F800000#32 = 1 := by
  simp [Ideal.ofBits, Ideal.ieee, -EReal.coe_mul]; norm_num

/-! ## Over the extended reals: a natural-number divisor -/

/-- Dividing by one changes nothing, at the infinities too. -/
theorem div_one' (a : EReal) : Ideal.div a 1 = a := by
  have h := Ideal.div_coe (y := (1 : ℝ)) one_ne_zero a
  rw [EReal.coe_one, one_div, inv_one, EReal.coe_one, mul_one] at h
  exact h

/-- For a natural number n: a / (n if 0 < n else 1) = a * (1 / max n 1), for every extended real a. -/
theorem div_where_nat (n : ℕ) (a : EReal) :
    Ideal.div a (if (0 : EReal) < (n : EReal) then (n : EReal) else 1) = a * Ideal.div 1 (max (n : EReal) 1) := by
  rcases Nat.eq_zero_or_pos n with rfl | hn
  · rw [Nat.cast_zero, if_neg (lt_irrefl _), max_eq_right zero_le_one, div_one', div_one', mul_one]
  · have hpos : (0 : EReal) < (n : EReal) := by
      have h := EReal.natCast_lt_iff.2 hn
      rwa [Nat.cast_zero] at h
    have h1 : (1 : EReal) ≤ (n : EReal) := by
      have h := EReal.natCast_le_iff.2 (Nat.succ_le_of_lt hn)
      rwa [Nat.cast_one] at h
    have hne : (n : ℝ) ≠ 0 := Nat.cast_ne_zero.2 hn.ne'
    rw [if_pos hpos, max_eq_left h1, ← EReal.coe_coe_eq_natCast n, Ideal.div_coe hne a, Ideal.div_coe hne 1, one_mul]

/-- The selector "d > 0 ? x : y" at the extended reals. -/
theorem select_ogt_zero (d x y : EReal) :
    Scalar.select (Ideal.cmp .ogt d (0 : EReal)) x y = if (0 : EReal) < d then x else y := by
  show (if BitVec.ofBool (decide ((0 : EReal) < d)) = 1 then x else y) = _
  by_cases h : (0 : EReal) < d
  · rw [if_pos h, decide_eq_true h]; rfl
  · rw [if_neg h, decide_eq_false h]; rfl

/-! ## A sum of zeros and ones is a natural number -/

/-- There is no ring structure on the extended reals to push a cast through a sum, so: by induction on the index set. -/
theorem sum_ite_one_nat {ι : Type} (s : Finset ι) (P : ι → Prop) [DecidablePred P] :
    ∃ n : ℕ, (∑ e ∈ s, if P e then (1 : EReal) else 0) = (n : EReal) := by
  classical
  refine Finset.induction_on s ⟨0, by rw [Finset.sum_empty, Nat.cast_zero]⟩ ?_
  intro a s ha ih
  obtain ⟨n, hn⟩ := ih
  rw [Finset.sum_insert ha, hn]
  by_cases hp : P a
  · exact ⟨n + 1, by rw [if_pos hp, Nat.cast_add, Nat.cast_one, add_comm]⟩
  · exact ⟨n, by rw [if_neg hp, zero_add]⟩

/-! ## The in-degree is a natural number -/

/-- The in-degree of node c: zero plus, over all edges, one for each edge whose destination word is c. -/
theorem deg_nat (x2 : (⟨S1000000, .i32⟩ : BufTy).Contents (Elt Ideal)) (c : Fin 100000) :
    ∃ n : ℕ, val_main_v13 (F := Ideal) x2 (ix1 c) = (n : EReal) := by
  have h : val_main_v13 (F := Ideal) x2
      = Ideal.hostScatterAdd
          (SegmentSum.flatScatterDims 100000 1000000 Facts₀.scatter_S100000_S1000000x1_S1000000_n_0_0_1_wf)
          (val_main_v11 (F := Ideal)) (val_main_v12 (F := Ideal) x2) (val_main_v10 (F := Ideal)) := rfl
  have h2 := ScatterAddRead.flat_scatterAdd_apply (N := 100000) (E := 1000000) (w := 32)
    Facts₀.scatter_S100000_S1000000x1_S1000000_n_0_0_1_wf
    (val_main_v11 (F := Ideal)) (val_main_v12 (F := Ideal) x2) (val_main_v10 (F := Ideal)) c
  have h0 : val_main_v11 (F := Ideal) (ix1 c) = 0 := by
    rw [val_main_v11_apply]; exact Ideal.ofBits_zero_f32
  have h1 : ∀ e : Fin 1000000, val_main_v10 (F := Ideal) (ix1 e) = 1 := fun e => by
    rw [val_main_v10_apply]; exact ofBits_one_f32
  obtain ⟨n, hn⟩ := sum_ite_one_nat (Finset.univ : Finset (Fin 1000000))
    (fun e => (val_main_v12 (F := Ideal) x2 (ix2 e 0)).toInt = (c.val : Int))
  refine ⟨n, ?_⟩
  rw [h, h2, h0, zero_add, ← hn]
  exact Finset.sum_congr rfl fun e _ => by rw [h1 e]

/-! ## The reciprocal-degree column read at an entry -/

theorem invDeg_apply (deg : (⟨1, ![100000]⟩ : Shape).Idx → EReal)
    (hb : (⟨0, ![]⟩ : Shape).BroadcastsInDim ⟨1, ![100000]⟩ (![] : Fin 0 → Fin (⟨1, ![100000]⟩ : Shape).rank))
    (hc : (⟨1, ![100000]⟩ : Shape).ShapeCasts ⟨2, ![100000, 1]⟩) (p : Fin 100000) (u : Fin 1) :
    invDeg deg hb hc (ix2 p u) = Ideal.div 1 (max (deg (ix1 p)) 1) := by
  unfold invDeg
  refine (KeepDims.shapeCast_a_a1_apply _ hc p u).trans ?_
  show Ideal.div (Ideal.ofBits .f32 0x3F800000#32) (max (deg (ix1 p)) (Ideal.ofBits .f32 0x3F800000#32)) = _
  rw [ofBits_one_f32]

/-- One entry: the numerator over "deg if deg > 0 else 1" is the numerator times the reciprocal-degree column's entry,
    for a degree vector whose entries are natural numbers. -/
theorem where_entry (deg : (⟨1, ![100000]⟩ : Shape).Idx → EReal)
    (hdeg : ∀ c : Fin 100000, ∃ n : ℕ, deg (ix1 c) = (n : EReal))
    (hb : (⟨0, ![]⟩ : Shape).BroadcastsInDim ⟨1, ![100000]⟩ (![] : Fin 0 → Fin (⟨1, ![100000]⟩ : Shape).rank))
    (hc : (⟨1, ![100000]⟩ : Shape).ShapeCasts ⟨2, ![100000, 1]⟩) (a : EReal) (p : Fin 100000) :
    Ideal.div a (Scalar.select (Ideal.cmp .ogt (deg (ix1 p)) (Ideal.ofBits .f32 0x00000000#32))
        (deg (ix1 p)) (Ideal.ofBits .f32 0x3F800000#32))
      = a * invDeg deg hb hc (ix2 p (0 : Fin 1)) := by
  obtain ⟨n, hn⟩ := hdeg p
  rw [invDeg_apply deg hb hc p 0, Ideal.ofBits_zero_f32, ofBits_one_f32, select_ogt_zero, hn]
  exact div_where_nat n a

/-! ## The three degree computations are one -/

theorem degs_eq (x2 : (⟨S1000000, .i32⟩ : BufTy).Contents (Elt Ideal)) :
    val_main_v64 (F := Ideal) x2 = val_main_v13 (F := Ideal) x2 ∧ val_main_v115 (F := Ideal) x2 = val_main_v13 (F := Ideal) x2 :=
  ⟨rfl, rfl⟩

/-! ## The reference's divisors read at an entry -/

theorem idx_col (p : Fin 100000) (u : Fin 1) : idx_main_v17 (ix2 p u) = ix1 p :=
  funext fun a => match a with | ⟨0, _⟩ => rfl

theorem v18_entry (x2 : (⟨S1000000, .i32⟩ : BufTy).Contents (Elt Ideal)) (p : Fin 100000) (k : Fin 64) :
    val_main_v18 (F := Ideal) x2 (ix2 p k)
      = Scalar.select (Ideal.cmp .ogt (val_main_v13 (F := Ideal) x2 (ix1 p)) (Ideal.ofBits .f32 0x00000000#32))
          (val_main_v13 (F := Ideal) x2 (ix1 p)) (Ideal.ofBits .f32 0x3F800000#32) := by
  have e18 : idx_main_v18 (ix2 p k) = ix2 p (0 : Fin 1) :=
    funext fun a => match a with | ⟨0, _⟩ => rfl | ⟨1, _⟩ => rfl
  rw [val_main_v18_apply, e18, val_main_v17_apply, idx_col p 0, val_main_v16_apply, val_main_v15_apply,
    val_main_v14_apply, val_main_call0_v1_apply]
  rfl

theorem v69_entry (x2 : (⟨S1000000, .i32⟩ : BufTy).Contents (Elt Ideal)) (p : Fin 100000) (k : Fin 128) :
    val_main_v69 (F := Ideal) x2 (ix2 p k)
      = Scalar.select (Ideal.cmp .ogt (val_main_v13 (F := Ideal) x2 (ix1 p)) (Ideal.ofBits .f32 0x00000000#32))
          (val_main_v13 (F := Ideal) x2 (ix1 p)) (Ideal.ofBits .f32 0x3F800000#32) := by
  have e69 : idx_main_v69 (ix2 p k) = ix2 p (0 : Fin 1) :=
    funext fun a => match a with | ⟨0, _⟩ => rfl | ⟨1, _⟩ => rfl
  have e68 : idx_main_v68 (ix2 p (0 : Fin 1)) = ix1 p :=
    funext fun a => match a with | ⟨0, _⟩ => rfl
  rw [val_main_v69_apply, e69, val_main_v68_apply, e68, val_main_v67_apply, val_main_v66_apply,
    val_main_v65_apply, val_main_call2_v1_apply, (degs_eq x2).1]
  rfl

theorem v120_entry (x2 : (⟨S1000000, .i32⟩ : BufTy).Contents (Elt Ideal)) (p : Fin 100000) (k : Fin 128) :
    val_main_v120 (F := Ideal) x2 (ix2 p k)
      = Scalar.select (Ideal.cmp .ogt (val_main_v13 (F := Ideal) x2 (ix1 p)) (Ideal.ofBits .f32 0x00000000#32))
          (val_main_v13 (F := Ideal) x2 (ix1 p)) (Ideal.ofBits .f32 0x3F800000#32) := by
  have e120 : idx_main_v120 (ix2 p k) = ix2 p (0 : Fin 1) :=
    funext fun a => match a with | ⟨0, _⟩ => rfl | ⟨1, _⟩ => rfl
  have e119 : idx_main_v119 (ix2 p (0 : Fin 1)) = ix1 p :=
    funext fun a => match a with | ⟨0, _⟩ => rfl
  rw [val_main_v120_apply, e120, val_main_v119_apply, e119, val_main_v118_apply, val_main_v117_apply,
    val_main_v116_apply, val_main_call4_v1_apply, (degs_eq x2).2]
  rfl

/-! ## The three divisions -/

/-- A quotient of two arrays read at an entry. -/
theorem hostDivf_at {d : ℕ} (A B : (⟨2, ![100000, d]⟩ : Shape).Idx → EReal) (i : (⟨2, ![100000, d]⟩ : Shape).Idx) :
    Host.divf (F := Ideal) (φ := .f32) A B i = Ideal.div (A i) (B i) := rfl

/-- A row-scaled array read at an entry. -/
theorem scale_at {d : ℕ} (A : (⟨2, ![100000, d]⟩ : Shape).Idx → EReal) (s : (⟨2, ![100000, 1]⟩ : Shape).Idx → EReal)
    (p : Fin 100000) (k : Fin d) : scale A s (ix2 p k) = A (ix2 p k) * s (ix2 p (0 : Fin 1)) := rfl

theorem div_where_64 (A : (⟨S100000x64, .f32⟩ : BufTy).Contents (Elt Ideal))
    (x2 : (⟨S1000000, .i32⟩ : BufTy).Contents (Elt Ideal))
    (hb : (⟨0, ![]⟩ : Shape).BroadcastsInDim ⟨1, ![100000]⟩ (![] : Fin 0 → Fin (⟨1, ![100000]⟩ : Shape).rank))
    (hc : (⟨1, ![100000]⟩ : Shape).ShapeCasts ⟨2, ![100000, 1]⟩) :
    Host.divf (F := Ideal) (φ := .f32) A (val_main_v18 (F := Ideal) x2)
      = scale A (invDeg (val_main_v13 (F := Ideal) x2) hb hc) := by
  funext i
  obtain ⟨p, k, rfl⟩ : ∃ (p : Fin 100000) (k : Fin 64), i = ix2 p k := ⟨i 0, i 1, eq_ix2 i⟩
  refine (hostDivf_at A (val_main_v18 (F := Ideal) x2) (ix2 p k)).trans ?_
  refine Eq.trans ?_ (scale_at A (invDeg (val_main_v13 (F := Ideal) x2) hb hc) p k).symm
  rw [v18_entry x2 p k]
  exact where_entry (val_main_v13 (F := Ideal) x2) (deg_nat x2) hb hc (A (ix2 p k)) p

theorem div_where_128a (A : (⟨S100000x128, .f32⟩ : BufTy).Contents (Elt Ideal))
    (x2 : (⟨S1000000, .i32⟩ : BufTy).Contents (Elt Ideal))
    (hb : (⟨0, ![]⟩ : Shape).BroadcastsInDim ⟨1, ![100000]⟩ (![] : Fin 0 → Fin (⟨1, ![100000]⟩ : Shape).rank))
    (hc : (⟨1, ![100000]⟩ : Shape).ShapeCasts ⟨2, ![100000, 1]⟩) :
    Host.divf (F := Ideal) (φ := .f32) A (val_main_v69 (F := Ideal) x2)
      = scale A (invDeg (val_main_v13 (F := Ideal) x2) hb hc) := by
  funext i
  obtain ⟨p, k, rfl⟩ : ∃ (p : Fin 100000) (k : Fin 128), i = ix2 p k := ⟨i 0, i 1, eq_ix2 i⟩
  refine (hostDivf_at A (val_main_v69 (F := Ideal) x2) (ix2 p k)).trans ?_
  refine Eq.trans ?_ (scale_at A (invDeg (val_main_v13 (F := Ideal) x2) hb hc) p k).symm
  rw [v69_entry x2 p k]
  exact where_entry (val_main_v13 (F := Ideal) x2) (deg_nat x2) hb hc (A (ix2 p k)) p

theorem div_where_128b (A : (⟨S100000x128, .f32⟩ : BufTy).Contents (Elt Ideal))
    (x2 : (⟨S1000000, .i32⟩ : BufTy).Contents (Elt Ideal))
    (hb : (⟨0, ![]⟩ : Shape).BroadcastsInDim ⟨1, ![100000]⟩ (![] : Fin 0 → Fin (⟨1, ![100000]⟩ : Shape).rank))
    (hc : (⟨1, ![100000]⟩ : Shape).ShapeCasts ⟨2, ![100000, 1]⟩) :
    Host.divf (F := Ideal) (φ := .f32) A (val_main_v120 (F := Ideal) x2)
      = scale A (invDeg (val_main_v13 (F := Ideal) x2) hb hc) := by
  funext i
  obtain ⟨p, k, rfl⟩ : ∃ (p : Fin 100000) (k : Fin 128), i = ix2 p k := ⟨i 0, i 1, eq_ix2 i⟩
  refine (hostDivf_at A (val_main_v120 (F := Ideal) x2) (ix2 p k)).trans ?_
  refine Eq.trans ?_ (scale_at A (invDeg (val_main_v13 (F := Ideal) x2) hb hc) p k).symm
  rw [v120_entry x2 p k]
  exact where_entry (val_main_v13 (F := Ideal) x2) (deg_nat x2) hb hc (A (ix2 p k)) p

end Cert.GraphLayer.InvDeg

end
-- ==== Proof.Net.lean ====
import proofs.«172100_j7851200217530_2_alg».proof.Proof.NetDefs
import proofs.«172100_j7851200217530_2_alg».proof.Proof.RefLayer0
import proofs.«172100_j7851200217530_2_alg».proof.Proof.RefLayer1
import proofs.«172100_j7851200217530_2_alg».proof.Proof.RefLayer2
import proofs.«172100_j7851200217530_2_alg».proof.Proof.InvDeg

/-!
# The reference computes the network function

Layer by layer: the reference's layer is the shared layer function of its node rows and its neighbour rows; its
neighbour rows are its neighbour sums divided, row by row, by the in-degree where that is positive and by one
elsewhere, which is the neighbour sums times `1 / max(deg, 1)` because an in-degree is a natural number; and its
neighbour sums are the shared gather-then-scatter chain of the previous layer's output.
-/

noncomputable section

namespace Cert.GraphLayer.Net

open Idealize.ShloMosaic Idealize.ShloMosaic.ValueIdx Cert.ReferenceIdeal Cert.ReferenceIdeal.Read Cert.GraphLayer
open Cert.ReferenceIdeal.RefValue Cert.GraphLayer.InvDeg

variable (x0 : (⟨S100000x64, .f32⟩ : BufTy).Contents (Elt Ideal)) (x1 x2 : (⟨S1000000, .i32⟩ : BufTy).Contents (Elt Ideal)) (x3 x4 : (⟨S64x128, .f32⟩ : BufTy).Contents (Elt Ideal)) (x5 : (⟨S128, .f32⟩ : BufTy).Contents (Elt Ideal))
  (x6 x7 : (⟨S128x128, .f32⟩ : BufTy).Contents (Elt Ideal)) (x8 : (⟨S128, .f32⟩ : BufTy).Contents (Elt Ideal)) (x9 x10 : (⟨S128x128, .f32⟩ : BufTy).Contents (Elt Ideal)) (x11 x12 x13 x14 x15 : (⟨S128, .f32⟩ : BufTy).Contents (Elt Ideal))
  (hb : (⟨0, ![]⟩ : Shape).BroadcastsInDim ⟨1, ![100000]⟩ (![] : Fin 0 → Fin (⟨1, ![100000]⟩ : Shape).rank))
  (hc : (⟨1, ![100000]⟩ : Shape).ShapeCasts ⟨2, ![100000, 1]⟩)

/-- The reference's result is the network function of its arguments. -/
theorem ref_net :
    val_main_v128 (F := Ideal) x0 x1 x2 x3 x4 x5 x6 x7 x8 x9 x10 x11 x12 x13 x14 x15
      = h3 x0 x1 x2 x3 x4 x5 x6 x7 x8 x9 x10 x11 x12 x13 x14 x15 (invDeg (val_main_v13 (F := Ideal) x2) hb hc) := by
  -- layer 0: neighbour rows, then the layer
  have s0 : val_main_v19 (F := Ideal) x0 x1 x2 = scale (agg64 x0 x1 x2) (invDeg (val_main_v13 (F := Ideal) x2) hb hc) :=
    div_where_64 (val_main_v9 (F := Ideal) x0 x1 x2) x2 hb hc
  have l0 : val_main_v50 (F := Ideal) x0 x1 x2 x3 x4 x5 x12 x13 = h1 x0 x1 x2 x3 x4 x5 x12 x13 (invDeg (val_main_v13 (F := Ideal) x2) hb hc) := by
    rw [ref_layer0, s0]; rfl
  -- layer 1
  have s1 : val_main_v70 (F := Ideal) x0 x1 x2 x3 x4 x5 x12 x13
      = scale (agg128 (val_main_v50 (F := Ideal) x0 x1 x2 x3 x4 x5 x12 x13) x1 x2) (invDeg (val_main_v13 (F := Ideal) x2) hb hc) :=
    div_where_128a (val_main_v60 (F := Ideal) x0 x1 x2 x3 x4 x5 x12 x13) x2 hb hc
  have l1 : val_main_v101 (F := Ideal) x0 x1 x2 x3 x4 x5 x6 x7 x8 x12 x13 x14 x15 = h2 x0 x1 x2 x3 x4 x5 x6 x7 x8 x12 x13 x14 x15 (invDeg (val_main_v13 (F := Ideal) x2) hb hc) := by
    rw [ref_layer1, s1, l0]; rfl
  -- layer 2
  have s2 : val_main_v121 (F := Ideal) x0 x1 x2 x3 x4 x5 x6 x7 x8 x12 x13 x14 x15
      = scale (agg128 (val_main_v101 (F := Ideal) x0 x1 x2 x3 x4 x5 x6 x7 x8 x12 x13 x14 x15) x1 x2) (invDeg (val_main_v13 (F := Ideal) x2) hb hc) :=
    div_where_128b (val_main_v111 (F := Ideal) x0 x1 x2 x3 x4 x5 x6 x7 x8 x12 x13 x14 x15) x2 hb hc
  rw [ref_layer2, s2, l1]; rfl

end Cert.GraphLayer.Net

end
-- ==== Proof.lean ====
/-
  The proof of `Cert.Claim`: a three-layer mean-aggregating graph network on 100000 nodes and 1000000 edges.

  Each layer takes node features `h`, forms every node's neighbour row (the sum of its in-neighbours' rows, a row
  gather at the source endpoints followed by an accumulating scatter at the destination endpoints, scaled by the
  reciprocal of the node's in-degree), and outputs `max (h·Ws + a·Wn + b) 0`, followed in the first two layers by a
  normalisation of each row over its 128 channels.  The kernel runs the dense part of each layer as a region of twenty
  row blocks and computes the reciprocal degree once, as `1 / max(deg, 1)`; the reference runs whole-array host
  operations and divides by `deg` where it is positive and by one elsewhere.

  Equal at the ideal values, for every input: the in-degree is a count, so the two scalings agree (dividing an
  extended real by a real `≥ 1` is multiplying by its reciprocal); a block of rows of a row-wise function is the
  function of the block; sums are taken over the same index sets in the same order; the gather / scatter chain is the
  same function on both sides and is never opened.  No finiteness of the inputs is used.

  The three frames: the two kernels' frame certificates and the reference's run with its result dropped.
  `preserves`: the idealization rewrote nothing.
-/
import proofs.«172100_j7851200217530_2_alg».proof.Defs
import proofs.«172100_j7851200217530_2_alg».proof.Proof.Gen.Kernel
import proofs.«172100_j7851200217530_2_alg».proof.Proof.Gen.KernelIdeal
import proofs.«172100_j7851200217530_2_alg».proof.Proof.Gen.ReferenceIdeal
import proofs.«172100_j7851200217530_2_alg».proof.Proof.Gen.Pre_finite_inputs
import proofs.«172100_j7851200217530_2_alg».proof.Proof.KernelFrame
import proofs.«172100_j7851200217530_2_alg».proof.Proof.KernelIdealFrame
import proofs.«172100_j7851200217530_2_alg».proof.Proof.ReferenceRun
import proofs.«172100_j7851200217530_2_alg».proof.Proof.ReferenceRead
import proofs.«172100_j7851200217530_2_alg».proof.Proof.RunValue
import proofs.«172100_j7851200217530_2_alg».proof.Proof.Chain
import proofs.«172100_j7851200217530_2_alg».proof.Proof.Net
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network function of the (agreeing) arguments in their result arrays. -/
theorem algebraic : Cert.algebraic_KernelIdeal_ReferenceIdeal := by
  intro m ρ m' ρ' _ hagree
  refine ⟨fun c => Cert.GraphLayer.Net.h3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      (Cert.KernelIdeal.Chain.sCol m c), ?_, ?_⟩
  · exact (θ_run Cert.KernelIdeal.defs _ _).mono
      (fun r h c => ⟨(h c).1.trans (Cert.KernelIdeal.Chain.result_eq m ρ c), (h c).2⟩)
      (Cert.KernelIdeal.RunValue.run_value m ρ)
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8, g9, g10, g11, g12, g13, g14, g15⟩ := hagree c
    rw [Cert.ReferenceIdeal.Read.val_main_v128_eq,
      Cert.GraphLayer.Net.ref_net _ _ _ _ _ _ _ _ _ _ _ _ _ _ _ _ Cert.KernelIdeal.Gen.bcast_S_S100000 Cert.KernelIdeal.Gen.shapeCasts_S100000_S100000x1,
      g0, g1, g2, g3, g4, g5, g6, g7, g8, g9, g10, g11, g12, g13, g14, g15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
